-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S256x2 : Shape := ⟨2, ![256, 2]⟩
abbrev S128x128 : Shape := ⟨2, ![128, 128]⟩
abbrev S128 : Shape := ⟨1, ![128]⟩
abbrev S128x12 : Shape := ⟨2, ![128, 12]⟩
abbrev S12 : Shape := ⟨1, ![12]⟩
abbrev S128x5 : Shape := ⟨2, ![128, 5]⟩
abbrev S5 : Shape := ⟨1, ![5]⟩
abbrev S256x128 : Shape := ⟨2, ![256, 128]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128x5 .f32) (main_arg13 : FVec F S5 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x5 .f32 := Host.absf main_arg12
  let main_cst_20 : FVec F S_ .f32 := constant S_ .f32 0x7F800000#32
  let main_v55 : FVec F S128x5 .f32 := broadcastInDim S128x5 ![] bcast_S_S128x5 main_cst_20
  let main_v56 : IVec S128x5 1 := cmpf .olt main_v54 main_v55
  let main_c_21 : IVec S_ 1 := constantI S_ 1 1#1
  let main_v57 : IVec S_ 1 := (fun x v => Host.reduce IntOp.andi x v reducesTo_S128x5_S_d0_1 h_S_) main_v56 main_c_21
  let main_v58 : IVec S_ 1 := andi main_v53 main_v57
  let main_v59 : FVec F S5 .f32 := Host.absf main_arg13
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  main_v63

def fn_part2 {F : FTy → Type} [FloatOps F] (main_arg8 : FVec F S128x5 .f32) (main_arg9 : FVec F S5 .f32) (main_arg10 : FVec F S256x128 .f32) (main_arg11 : FVec F S128 .f32) (main_arg12 : FVec F S128x5 .f32) (main_arg13 : FVec F S5 .f32) (main_v33 : IVec S_ 1) : IVec S_ 1 :=
  let main_v34 : FVec F S128x5 .f32 := Host.absf main_arg8
  let main_cst_12 : FVec F S_ .f32 := constant S_ .f32 0x7F800000#32
  let main_v35 : FVec F S128x5 .f32 := broadcastInDim S128x5 ![] bcast_S_S128x5 main_cst_12
  let main_v36 : IVec S128x5 1 := cmpf .olt main_v34 main_v35
  let main_c_13 : IVec S_ 1 := constantI S_ 1 1#1
  let main_v37 : IVec S_ 1 := (fun x v => Host.reduce IntOp.andi x v reducesTo_S128x5_S_d0_1 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S12 .f32) (main_arg6 : FVec F S128x128 .f32) (main_arg7 : FVec F S128 .f32) (main_arg8 : FVec F S128x5 .f32) (main_arg9 : FVec F S5 .f32) (main_arg10 : FVec F S256x128 .f32) (main_arg11 : FVec F S128 .f32) (main_arg12 : FVec F S128x5 .f32) (main_arg13 : FVec F S5 .f32) (main_v13 : IVec S_ 1) (main_v16 : IVec S128x12 1) : IVec S_ 1 :=
  let main_c_5 : IVec S_ 1 := constantI S_ 1 1#1
  let main_v17 : IVec S_ 1 := (fun x v => Host.reduce IntOp.andi x v reducesTo_S128x12_S_d0_1 h_S_) main_v16 main_c_5
  let main_v18 : IVec S_ 1 := andi main_v13 main_v17
  let main_v19 : FVec F S12 .f32 := Host.absf main_arg5
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S12288x128 .f32) (main_arg1 : IVec S256x2 32) (main_arg2 : FVec F S128x128 .f32) (main_arg3 : FVec F S128 .f32) (main_arg4 : FVec F S128x12 .f32) (main_arg5 : FVec F S12 .f32) (main_arg6 : FVec F S128x128 .f32) (main_arg7 : FVec F S128 .f32) (main_arg8 : FVec F S128x5 .f32) (main_arg9 : FVec F S5 .f32) (main_arg10 : FVec F S256x128 .f32) (main_arg11 : FVec F S128 .f32) (main_arg12 : FVec F S128x5 .f32) (main_arg13 : FVec F S5 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x12 .f32 := Host.absf main_arg4
  let main_cst_4 : FVec F S_ .f32 := constant S_ .f32 0x7F800000#32
  let main_v15 : FVec F S128x12 .f32 := broadcastInDim S128x12 ![] bcast_S_S128x12 main_cst_4
  let main_v16 : IVec S128x12 1 := cmpf .olt main_v14 main_v15
  fn_part1 (F := F) main_arg5 main_arg6 main_arg7 main_arg8 main_arg9 main_arg10 main_arg11 main_arg12 main_arg13 main_v13 main_v16
-- ==== Kernel.lean ====
abbrev S12288x128 : Shape := ⟨2, ![12288, 128]⟩
abbrev S256x2 : Shape := ⟨2, ![256, 2]⟩
abbrev S128x128 : Shape := ⟨2, ![128, 128]⟩
abbrev S128 : Shape := ⟨1, ![128]⟩
abbrev S128x12 : Shape := ⟨2, ![128, 12]⟩
abbrev S12 : Shape := ⟨1, ![12]⟩
abbrev S128x5 : Shape := ⟨2, ![128, 5]⟩
abbrev S5 : Shape := ⟨1, ![5]⟩
abbrev S256x128 : Shape := ⟨2, ![256, 128]⟩
abbrev S12288x12 : Shape := ⟨2, ![12288, 12]⟩
abbrev S12288x5 : Shape := ⟨2, ![12288, 5]⟩
abbrev S1536x128 : Shape := ⟨2, ![1536, 128]⟩
abbrev S1536x12 : Shape := ⟨2, ![1536, 12]⟩
abbrev S1536x5 : Shape := ⟨2, ![1536, 5]⟩
abbrev S1x128 : Shape := ⟨2, ![1, 128]⟩
abbrev S1x12 : Shape := ⟨2, ![1, 12]⟩
abbrev S1x5 : Shape := ⟨2, ![1, 5]⟩
abbrev S256x48x128 : Shape := ⟨3, ![256, 48, 128]⟩
abbrev S256x48x48x5 : Shape := ⟨4, ![256, 48, 48, 5]⟩
abbrev S4x48x128 : Shape := ⟨3, ![4, 48, 128]⟩
abbrev S4x48x48x5 : Shape := ⟨4, ![4, 48, 48, 5]⟩
abbrev S192x128 : Shape := ⟨2, ![192, 128]⟩
abbrev S4x48x1x128 : Shape := ⟨4, ![4, 48, 1, 128]⟩
abbrev S4x1x48x128 : Shape := ⟨4, ![4, 1, 48, 128]⟩
abbrev S4x48x48x128 : Shape := ⟨4, ![4, 48, 48, 128]⟩
abbrev S1x1x1x128 : Shape := ⟨4, ![1, 1, 1, 128]⟩
abbrev S9216x128 : Shape := ⟨2, ![9216, 128]⟩
abbrev S9216x5 : Shape := ⟨2, ![9216, 5]⟩
abbrev S589824x5 : Shape := ⟨2, ![589824, 5]⟩

abbrev nBuf : Space → Nat
  | .hbm => 21
  | .vmem => 23
  | .smem => 0
  | _ => 0

abbrev bufTy : (tb : Table) → Fin (tcTables nBuf tb) → BufTy
  | .hbm, ⟨0, _⟩ => ⟨S12288x128, .f32⟩
  | .hbm, ⟨1, _⟩ => ⟨S256x2, .i32⟩
  | .hbm, ⟨2, _⟩ => ⟨S128x128, .f32⟩
  | .hbm, ⟨3, _⟩ => ⟨S128, .f32⟩
  | .hbm, ⟨4, _⟩ => ⟨S128x12, .f32⟩
  | .hbm, ⟨5, _⟩ => ⟨S12, .f32⟩
  | .hbm, ⟨6, _⟩ => ⟨S128x128, .f32⟩
  | .hbm, ⟨7, _⟩ => ⟨S128, .f32⟩
  | .hbm, ⟨8, _⟩ => ⟨S128x5, .f32⟩
  | .hbm, ⟨9, _⟩ => ⟨S5, .f32⟩
  | .hbm, ⟨10, _⟩ => ⟨S256x128, .f32⟩
  | .hbm, ⟨11, _⟩ => ⟨S128, .f32⟩
  | .hbm, ⟨12, _⟩ => ⟨S128x5, .f32⟩
  | .hbm, ⟨13, _⟩ => ⟨S5, .f32⟩
  | .hbm, ⟨14, _⟩ => ⟨S12288x12, .f32⟩
  | .hbm, ⟨15, _⟩ => ⟨S12288x5, .f32⟩
  | .hbm, ⟨16, _⟩ => ⟨S256x48x128, .f32⟩
  | .hbm, ⟨17, _⟩ => ⟨S128x128, .f32⟩
  | .hbm, ⟨18, _⟩ => ⟨S128x128, .f32⟩
  | .hbm, ⟨19, _⟩ => ⟨S256x48x48x5, .f32⟩
  | .hbm, ⟨20, _⟩ => ⟨S589824x5, .f32⟩
  | .local _ .vmem, ⟨0, _⟩ => ⟨S1536x128, .f32⟩
  | .local _ .vmem, ⟨1, _⟩ => ⟨S1536x128, .f32⟩
  | .local _ .vmem, ⟨2, _⟩ => ⟨S128x128, .f32⟩
  | .local _ .vmem, ⟨3, _⟩ => ⟨S128, .f32⟩
  | .local _ .vmem, ⟨4, _⟩ => ⟨S128x12, .f32⟩
  | .local _ .vmem, ⟨5, _⟩ => ⟨S12, .f32⟩
  | .local _ .vmem, ⟨6, _⟩ => ⟨S128x128, .f32⟩
  | .local _ .vmem, ⟨7, _⟩ => ⟨S128, .f32⟩
  | .local _ .vmem, ⟨8, _⟩ => ⟨S128x5, .f32⟩
  | .local _ .vmem, ⟨9, _⟩ => ⟨S5, .f32⟩
  | .local _ .vmem, ⟨10, _⟩ => ⟨S1536x12, .f32⟩
  | .local _ .vmem, ⟨11, _⟩ => ⟨S1536x12, .f32⟩
  | .local _ .vmem, ⟨12, _⟩ => ⟨S1536x5, .f32⟩
  | .local _ .vmem, ⟨13, _⟩ => ⟨S1536x5, .f32⟩
  | .local _ .vmem, ⟨14, _⟩ => ⟨S4x48x128, .f32⟩
  | .local _ .vmem, ⟨15, _⟩ => ⟨S4x48x128, .f32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S128x5, .f32⟩
  | .local _ .vmem, ⟨20, _⟩ => ⟨S5, .f32⟩
  | .local _ .vmem, ⟨21, _⟩ => ⟨S4x48x48x5, .f32⟩
  | .local _ .vmem, ⟨22, _⟩ => ⟨S4x48x48x5, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1536x12 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1536x5 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x48x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4x48x48x5 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1536x128_S1536x128_0_0 : ∀ a, (![0, 0] : Fin 2 → Nat) a + S1536x128.size a ≤ S1536x128.size a
  h_S1536x128 : 0 < S1536x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1536x128 : S1x128.Broadcasts S1536x128
  inb_S128x12_S128x12_0_0 : ∀ a, (![0, 0] : Fin 2 → Nat) a + S128x12.size a ≤ S128x12.size a
  h_S128x12 : 0 < S128x12.numel
  inb_S12_S12_0 : ∀ a, (![0] : Fin 1 → Nat) a + S12.size a ≤ S12.size a
  h_S12 : 0 < S12.numel
  shapeCasts_S12_S1x12 : S12.ShapeCasts S1x12
  broadcasts_S1x12_S1536x12 : S1x12.Broadcasts S1536x12
  inb_S1536x12_S1536x12_0_0 : ∀ a, (![0, 0] : Fin 2 → Nat) a + S1536x12.size a ≤ S1536x12.size a
  h_S1536x12 : 0 < S1536x12.numel
  inb_S128x5_S128x5_0_0 : ∀ a, (![0, 0] : Fin 2 → Nat) a + S128x5.size a ≤ S128x5.size a
  h_S128x5 : 0 < S128x5.numel
  inb_S5_S5_0 : ∀ a, (![0] : Fin 1 → Nat) a + S5.size a ≤ S5.size a
  h_S5 : 0 < S5.numel
  shapeCasts_S5_S1x5 : S5.ShapeCasts S1x5
  broadcasts_S1x5_S1536x5 : S1x5.Broadcasts S1536x5
  inb_S1536x5_S1536x5_0_0 : ∀ a, (![0, 0] : Fin 2 → Nat) a + S1536x5.size a ≤ S1536x5.size a
  h_S1536x5 : 0 < S1536x5.numel
  shapeCasts_S12288x128_S256x48x128 : S12288x128.ShapeCasts S256x48x128
  slices_S256x128_S128x128_0_0 : S256x128.Slices ![0, 0] S128x128
  slices_S256x128_S128x128_128_0 : S256x128.Slices ![128, 0] S128x128
  inb_S4x48x128_S4x48x128_0_0_0 : ∀ a, (![0, 0, 0] : Fin 3 → Nat) a + S4x48x128.size a ≤ S4x48x128.size a
  h_S4x48x128 : 0 < S4x48x128.numel
  shapeCasts_S4x48x128_S4x48x128 : S4x48x128.ShapeCasts S4x48x128
  shapeCasts_S4x48x128_S192x128 : S4x48x128.ShapeCasts S192x128
  shapeCasts_S128x128_S128x128 : S128x128.ShapeCasts S128x128
  shapeCasts_S192x128_S4x48x128 : S192x128.ShapeCasts S4x48x128
  shapeCasts_S4x48x128_S4x48x1x128 : S4x48x128.ShapeCasts S4x48x1x128
  shapeCasts_S4x48x128_S4x1x48x128 : S4x48x128.ShapeCasts S4x1x48x128
  broadcasts_S4x48x1x128_S4x48x48x128 : S4x48x1x128.Broadcasts S4x48x48x128
  broadcasts_S4x1x48x128_S4x48x48x128 : S4x1x48x128.Broadcasts S4x48x48x128
  shapeCasts_S128_S1x1x1x128 : S128.ShapeCasts S1x1x1x128
  broadcasts_S1x1x1x128_S4x48x48x128 : S1x1x1x128.Broadcasts S4x48x48x128
  shapeCasts_S4x48x48x128_S9216x128 : S4x48x48x128.ShapeCasts S9216x128
  broadcasts_S1x5_S9216x5 : S1x5.Broadcasts S9216x5
  shapeCasts_S9216x5_S4x48x48x5 : S9216x5.ShapeCasts S4x48x48x5
  inb_S4x48x48x5_S4x48x48x5_0_0_0_0 : ∀ a, (![0, 0, 0, 0] : Fin 4 → Nat) a + S4x48x48x5.size a ≤ S4x48x48x5.size a
  h_S4x48x48x5 : 0 < S4x48x48x5.numel
  shapeCasts_S256x48x48x5_S589824x5 : S256x48x48x5.ShapeCasts S589824x5
  dot_S1536x128_S128x128_S1536x128_1_0_0_1_n_n_wf : DotDims.WF S1536x128 S128x128 S1536x128 [1] [0] [0] [1] [] []
  dot_S1536x128_S128x12_S1536x12_1_0_0_1_n_n_wf : DotDims.WF S1536x128 S128x12 S1536x12 [1] [0] [0] [1] [] []
  dot_S1536x128_S128x5_S1536x5_1_0_0_1_n_n_wf : DotDims.WF S1536x128 S128x5 S1536x5 [1] [0] [0] [1] [] []
  dot_S192x128_S128x128_S192x128_1_0_0_1_n_n_wf : DotDims.WF S192x128 S128x128 S192x128 [1] [0] [0] [1] [] []
  dot_S9216x128_S128x5_S9216x5_1_0_0_1_n_n_wf : DotDims.WF S9216x128 S128x5 S9216x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x128.size a ≤ S12288x128.size a
  hwx0_0 : ∀ i : grid0.Coords, EltTy.bits .f32 = 32 ∨ (Rect.block (s := S12288x128) S1536x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x12.size a ≤ S128x12.size a
  hwx0_3 : ∀ i : grid0.Coords, EltTy.bits .f32 = 32 ∨ (Rect.block (s := S128x12) S128x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12.size a ≤ S12.size a
  hwx0_4 : ∀ i : grid0.Coords, EltTy.bits .f32 = 32 ∨ (Rect.block (s := S12) S12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x5.size a ≤ S128x5.size a
  hwx0_7 : ∀ i : grid0.Coords, EltTy.bits .f32 = 32 ∨ (Rect.block (s := S128x5) S128x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5.size a ≤ S5.size a
  hwx0_8 : ∀ i : grid0.Coords, EltTy.bits .f32 = 32 ∨ (Rect.block (s := S5) S5.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1536x12.size a ≤ S12288x12.size a
  hwx0_9 : ∀ i : grid0.Coords, EltTy.bits .f32 = 32 ∨ (Rect.block (s := S12288x12) S1536x12.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1536x5.size a ≤ S12288x5.size a
  hwx0_10 : ∀ i : grid0.Coords, EltTy.bits .f32 = 32 ∨ (Rect.block (s := S12288x5) S1536x5.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x48x128.size a ≤ S256x48x128.size a
  hwx1_0 : ∀ i : grid1.Coords, EltTy.bits .f32 = 32 ∨ (Rect.block (s := S256x48x128) S4x48x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x5.size a ≤ S128x5.size a
  hwx1_4 : ∀ i : grid1.Coords, EltTy.bits .f32 = 32 ∨ (Rect.block (s := S128x5) S128x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5.size a ≤ S5.size a
  hwx1_5 : ∀ i : grid1.Coords, EltTy.bits .f32 = 32 ∨ (Rect.block (s := S5) S5.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x48x48x5.size a ≤ S256x48x48x5.size a
  hwx1_6 : ∀ i : grid1.Coords, EltTy.bits .f32 = 32 ∨ (Rect.block (s := S256x48x48x5) S4x48x48x5.size (cc1_transform_6 i) (hinb1_6 i)).WholeWords (EltTy.packing .f32)

variable [Facts₀]

def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def dot_S1536x128_S128x12_S1536x12_1_0_0_1_n_n : DotDims S1536x128 S128x12 S1536x12 where
  lhsContracting := [1]
  rhsContracting := [0]
  lhsNonContracting := [0]
  rhsNonContracting := [1]
  lhsBatch := []
  rhsBatch := []
  wf := dot_S1536x128_S128x12_S1536x12_1_0_0_1_n_n_wf
def dot_S1536x128_S128x5_S1536x5_1_0_0_1_n_n : DotDims S1536x128 S128x5 S1536x5 where
  lhsContracting := [1]
  rhsContracting := [0]
  lhsNonContracting := [0]
  rhsNonContracting := [1]
  lhsBatch := []
  rhsBatch := []
  wf := dot_S1536x128_S128x5_S1536x5_1_0_0_1_n_n_wf
def dot_S192x128_S128x128_S192x128_1_0_0_1_n_n : DotDims S192x128 S128x128 S192x128 where
  lhsContracting := [1]
  rhsContracting := [0]
  lhsNonContracting := [0]
  rhsNonContracting := [1]
  lhsBatch := []
  rhsBatch := []
  wf := dot_S192x128_S128x128_S192x128_1_0_0_1_n_n_wf
def dot_S9216x128_S128x5_S9216x5_1_0_0_1_n_n : DotDims S9216x128 S128x5 S9216x5 where
  lhsContracting := [1]
  rhsContracting := [0]
  lhsNonContracting := [0]
  rhsNonContracting := [1]
  lhsBatch := []
  rhsBatch := []
  wf := dot_S9216x128_S128x5_S9216x5_1_0_0_1_n_n_wf

abbrev win0_0 : Pipeline.Window sig grid0 :=
  Pipeline.Window.ofSpec (Memref.whole main_arg0) S1536x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1536x12.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1536x5.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v1) S4x48x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S4x48x48x5.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S12288x128 : Shape := ⟨2, ![12288, 128]⟩
abbrev S256x2 : Shape := ⟨2, ![256, 2]⟩
abbrev S128x128 : Shape := ⟨2, ![128, 128]⟩
abbrev S128 : Shape := ⟨1, ![128]⟩
abbrev S128x12 : Shape := ⟨2, ![128, 12]⟩
abbrev S12 : Shape := ⟨1, ![12]⟩
abbrev S128x5 : Shape := ⟨2, ![128, 5]⟩
abbrev S5 : Shape := ⟨1, ![5]⟩
abbrev S256x128 : Shape := ⟨2, ![256, 128]⟩
abbrev S1x128 : Shape := ⟨2, ![1, 128]⟩
abbrev S_ : Shape := ⟨0, ![]⟩
abbrev S12288x12 : Shape := ⟨2, ![12288, 12]⟩
abbrev S1x12 : Shape := ⟨2, ![1, 12]⟩
abbrev S12288x5 : Shape := ⟨2, ![12288, 5]⟩
abbrev S1x5 : Shape := ⟨2, ![1, 5]⟩
abbrev S256x48x128 : Shape := ⟨3, ![256, 48, 128]⟩
abbrev S256x48x1x128 : Shape := ⟨4, ![256, 48, 1, 128]⟩
abbrev S256x48x48x128 : Shape := ⟨4, ![256, 48, 48, 128]⟩
abbrev S256x1x48x128 : Shape := ⟨4, ![256, 1, 48, 128]⟩
abbrev S256x48x48x256 : Shape := ⟨4, ![256, 48, 48, 256]⟩
abbrev S1x1x1x128 : Shape := ⟨4, ![1, 1, 1, 128]⟩
abbrev S256x48x48x5 : Shape := ⟨4, ![256, 48, 48, 5]⟩
abbrev S1x1x1x5 : Shape := ⟨4, ![1, 1, 1, 5]⟩
abbrev S589824x5 : Shape := ⟨2, ![589824, 5]⟩

abbrev nBuf : Space → Nat
  | .hbm => 54
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S256x2, .i32⟩
  | .hbm, ⟨2, _⟩ => ⟨S128x128, .f32⟩
  | .hbm, ⟨3, _⟩ => ⟨S128, .f32⟩
  | .hbm, ⟨4, _⟩ => ⟨S128x12, .f32⟩
  | .hbm, ⟨5, _⟩ => ⟨S12, .f32⟩
  | .hbm, ⟨6, _⟩ => ⟨S128x128, .f32⟩
  | .hbm, ⟨7, _⟩ => ⟨S128, .f32⟩
  | .hbm, ⟨8, _⟩ => ⟨S128x5, .f32⟩
  | .hbm, ⟨9, _⟩ => ⟨S5, .f32⟩
  | .hbm, ⟨10, _⟩ => ⟨S256x128, .f32⟩
  | .hbm, ⟨11, _⟩ => ⟨S128, .f32⟩
  | .hbm, ⟨12, _⟩ => ⟨S128x5, .f32⟩
  | .hbm, ⟨13, _⟩ => ⟨S5, .f32⟩
  | .hbm, ⟨14, _⟩ => ⟨S12288x128, .f32⟩
  | .hbm, ⟨15, _⟩ => ⟨S1x128, .f32⟩
  | .hbm, ⟨16, _⟩ => ⟨S12288x128, .f32⟩
  | .hbm, ⟨17, _⟩ => ⟨S12288x128, .f32⟩
  | .hbm, ⟨18, _⟩ => ⟨S_, .f32⟩
  | .hbm, ⟨19, _⟩ => ⟨S12288x128, .f32⟩
  | .hbm, ⟨20, _⟩ => ⟨S12288x128, .f32⟩
  | .hbm, ⟨21, _⟩ => ⟨S12288x12, .f32⟩
  | .hbm, ⟨22, _⟩ => ⟨S1x12, .f32⟩
  | .hbm, ⟨23, _⟩ => ⟨S12288x12, .f32⟩
  | .hbm, ⟨24, _⟩ => ⟨S12288x12, .f32⟩
  | .hbm, ⟨25, _⟩ => ⟨S12288x128, .f32⟩
  | .hbm, ⟨26, _⟩ => ⟨S1x128, .f32⟩
  | .hbm, ⟨27, _⟩ => ⟨S12288x128, .f32⟩
  | .hbm, ⟨28, _⟩ => ⟨S12288x128, .f32⟩
  | .hbm, ⟨29, _⟩ => ⟨S_, .f32⟩
  | .hbm, ⟨30, _⟩ => ⟨S12288x128, .f32⟩
  | .hbm, ⟨31, _⟩ => ⟨S12288x128, .f32⟩
  | .hbm, ⟨32, _⟩ => ⟨S12288x5, .f32⟩
  | .hbm, ⟨33, _⟩ => ⟨S1x5, .f32⟩
  | .hbm, ⟨34, _⟩ => ⟨S12288x5, .f32⟩
  | .hbm, ⟨35, _⟩ => ⟨S12288x5, .f32⟩
  | .hbm, ⟨36, _⟩ => ⟨S256x48x128, .f32⟩
  | .hbm, ⟨37, _⟩ => ⟨S256x48x1x128, .f32⟩
  | .hbm, ⟨38, _⟩ => ⟨S256x48x48x128, .f32⟩
  | .hbm, ⟨39, _⟩ => ⟨S256x1x48x128, .f32⟩
  | .hbm, ⟨40, _⟩ => ⟨S256x48x48x128, .f32⟩
  | .hbm, ⟨41, _⟩ => ⟨S256x48x48x256, .f32⟩
  | .hbm, ⟨42, _⟩ => ⟨S256x48x48x128, .f32⟩
  | .hbm, ⟨43, _⟩ => ⟨S1x1x1x128, .f32⟩
  | .hbm, ⟨44, _⟩ => ⟨S256x48x48x128, .f32⟩
  | .hbm, ⟨45, _⟩ => ⟨S256x48x48x128, .f32⟩
  | .hbm, ⟨46, _⟩ => ⟨S_, .f32⟩
  | .hbm, ⟨47, _⟩ => ⟨S256x48x48x128, .f32⟩
  | .hbm, ⟨48, _⟩ => ⟨S256x48x48x128, .f32⟩
  | .hbm, ⟨49, _⟩ => ⟨S256x48x48x5, .f32⟩
  | .hbm, ⟨50, _⟩ => ⟨S1x1x1x5, .f32⟩
  | .hbm, ⟨51, _⟩ => ⟨S256x48x48x5, .f32⟩
  | .hbm, ⟨52, _⟩ => ⟨S256x48x48x5, .f32⟩
  | .hbm, ⟨53, _⟩ => ⟨S589824x5, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call2_cst : Ref sig .tc := ⟨.hbm, 46, rfl⟩
abbrev main_call2_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  bcast_S_S12288x128 : S_.BroadcastsInDim S12288x128 (![] : Fin 0 → Fin S12288x128.rank)
  bcast_S12_S1x12_1 : S12.BroadcastsInDim S1x12 (![1] : Fin 1 → Fin S1x12.rank)
  bcast_S1x12_S12288x12_0_1 : S1x12.BroadcastsInDim S12288x12 (![0, 1] : Fin 2 → Fin S12288x12.rank)
  bcast_S5_S1x5_1 : S5.BroadcastsInDim S1x5 (![1] : Fin 1 → Fin S1x5.rank)
  bcast_S1x5_S12288x5_0_1 : S1x5.BroadcastsInDim S12288x5 (![0, 1] : Fin 2 → Fin S12288x5.rank)
  shapeCasts_S12288x128_S256x48x128 : S12288x128.ShapeCasts S256x48x128
  bcast_S256x48x128_S256x48x1x128_0_1_3 : S256x48x128.BroadcastsInDim S256x48x1x128 (![0, 1, 3] : Fin 3 → Fin S256x48x1x128.rank)
  bcast_S256x48x1x128_S256x48x48x128_0_1_2_3 : S256x48x1x128.BroadcastsInDim S256x48x48x128 (![0, 1, 2, 3] : Fin 4 → Fin S256x48x48x128.rank)
  bcast_S256x48x128_S256x1x48x128_0_2_3 : S256x48x128.BroadcastsInDim S256x1x48x128 (![0, 2, 3] : Fin 3 → Fin S256x1x48x128.rank)
  bcast_S256x1x48x128_S256x48x48x128_0_1_2_3 : S256x1x48x128.BroadcastsInDim S256x48x48x128 (![0, 1, 2, 3] : Fin 4 → Fin S256x48x48x128.rank)
  concatenates_S256x48x48x128_S256x48x48x128_S256x48x48x256_d3 : Shape.Concatenates [S256x48x48x128, S256x48x48x128] S256x48x48x256 3
  bcast_S128_S1x1x1x128_3 : S128.BroadcastsInDim S1x1x1x128 (![3] : Fin 1 → Fin S1x1x1x128.rank)
  bcast_S1x1x1x128_S256x48x48x128_0_1_2_3 : S1x1x1x128.BroadcastsInDim S256x48x48x128 (![0, 1, 2, 3] : Fin 4 → Fin S256x48x48x128.rank)
  bcast_S_S256x48x48x128 : S_.BroadcastsInDim S256x48x48x128 (![] : Fin 0 → Fin S256x48x48x128.rank)
  bcast_S5_S1x1x1x5_3 : S5.BroadcastsInDim S1x1x1x5 (![3] : Fin 1 → Fin S1x1x1x5.rank)
  bcast_S1x1x1x5_S256x48x48x5_0_1_2_3 : S1x1x1x5.BroadcastsInDim S256x48x48x5 (![0, 1, 2, 3] : Fin 4 → Fin S256x48x48x5.rank)
  shapeCasts_S256x48x48x5_S589824x5 : S256x48x48x5.ShapeCasts S589824x5
  dot_S12288x128_S128x128_S12288x128_1_0_0_1_n_n_wf : DotDims.WF S12288x128 S128x128 S12288x128 [1] [0] [0] [1] [] []
  dot_S12288x128_S128x12_S12288x12_1_0_0_1_n_n_wf : DotDims.WF S12288x128 S128x12 S12288x12 [1] [0] [0] [1] [] []
  dot_S12288x128_S128x5_S12288x5_1_0_0_1_n_n_wf : DotDims.WF S12288x128 S128x5 S12288x5 [1] [0] [0] [1] [] []
  dot_S256x48x48x256_S256x128_S256x48x48x128_3_0_012_1_n_n_wf : DotDims.WF S256x48x48x256 S256x128 S256x48x48x128 [3] [0] [0, 1, 2] [1] [] []
  dot_S256x48x48x128_S128x5_S256x48x48x5_3_0_012_1_n_n_wf : DotDims.WF S256x48x48x128 S128x5 S256x48x48x5 [3] [0] [0, 1, 2] [1] [] []

variable [Facts₀]

def dot_S12288x128_S128x128_S12288x128_1_0_0_1_n_n : DotDims S12288x128 S128x128 S12288x128 where
  lhsContracting := [1]
  rhsContracting := [0]
  lhsNonContracting := [0]
  rhsNonContracting := [1]
  lhsBatch := []
  rhsBatch := []
  wf := dot_S12288x128_S128x128_S12288x128_1_0_0_1_n_n_wf
def dot_S12288x128_S128x12_S12288x12_1_0_0_1_n_n : DotDims S12288x128 S128x12 S12288x12 where
  lhsContracting := [1]
  rhsContracting := [0]
  lhsNonContracting := [0]
  rhsNonContracting := [1]
  lhsBatch := []
  rhsBatch := []
  wf := dot_S12288x128_S128x12_S12288x12_1_0_0_1_n_n_wf
def dot_S12288x128_S128x5_S12288x5_1_0_0_1_n_n : DotDims S12288x128 S128x5 S12288x5 where
  lhsContracting := [1]
  rhsContracting := [0]
  lhsNonContracting := [0]
  rhsNonContracting := [1]
  lhsBatch := []
  rhsBatch := []
  wf := dot_S12288x128_S128x5_S12288x5_1_0_0_1_n_n_wf
def dot_S256x48x48x256_S256x128_S256x48x48x128_3_0_012_1_n_n : DotDims S256x48x48x256 S256x128 S256x48x48x128 where
  lhsContracting := [3]
  rhsContracting := [0]
  lhsNonContracting := [0, 1, 2]
  rhsNonContracting := [1]
  lhsBatch := []
  rhsBatch := []
  wf := dot_S256x48x48x256_S256x128_S256x48x48x128_3_0_012_1_n_n_wf
def dot_S256x48x48x128_S128x5_S256x48x48x5_3_0_012_1_n_n : DotDims S256x48x48x128 S128x5 S256x48x48x5 where
  lhsContracting := [3]
  rhsContracting := [0]
  lhsNonContracting := [0, 1, 2]
  rhsNonContracting := [1]
  lhsBatch := []
  rhsBatch := []
  wf := dot_S256x48x48x128_S128x5_S256x48x48x5_3_0_012_1_n_n_wf

class Facts : Prop extends Facts₀ where

variable [Facts]
-- ==== Proof.FinalMemory.lean ====
/-
  Every weakly fair execution of the idealized program ends, and when it has ended each buffer the TensorCore
  keeps between its segments holds what the program's four segments, folded in order from the launch memory, leave
  in it: the first region's arrays at what its eight grid points wrote back, the three host operations between the
  regions (a reshape of the embeddings and the two halves of the pair weights), the second region's arrays at what
  its sixty-four points wrote back, and the closing reshape of the pair logits.  The run is read here at every
  buffer that outlives a segment, so that the three result arrays can be read off the fold.
-/
import proofs.«144118_j27900107555247_2_alg».proof.Proof.Gen.KernelIdeal.Frame

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every unscoped buffer of every core read at the last boundary's contents. -/
theorem run_memory : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Final

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.MlpBody.lean ====
/-
  What one grid point of the per-atom kernel stores, entry by entry, over the extended reals.

  The point holds 1536 rows of the embedding matrix.  For each head it multiplies them by the first-layer weights,
  adds the first-layer bias to every row, rectifies, multiplies by the second-layer weights and adds the second-layer
  bias to every row.  Narrowing an operand to bfloat16 on the way into a product changes nothing in exact arithmetic,
  and a product accumulated into zeros is the plain sum, so entry (r, j) of what is stored is
      Σ_k max (Σ_h x[r, h] · W1[h, k] + b1[k], 0) · W2[k, j] + b2[j].
-/
import proofs.«144118_j27900107555247_2_alg».proof.Proof.Gen.KernelIdeal.Skeleton
import proofs.«144118_j27900107555247_2_alg».proof.Proof.LibMatmul
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.LibMatmul

/-- A bias vector laid out as one row and repeated down 1536 rows reads, at (r, k), the bias at k. -/
theorem bias_row128 (v : Vec Ideal S128 .f32) (h1 : S128.ShapeCasts S1x128) (h2 : S1x128.Broadcasts S1536x128)
    (r : Fin 1536) (k : Fin 128) :
    broadcastTo S1536x128 (shapeCast S1x128 v h1) h2 (ix2 r k) = v (ix1 k) :=
  (broadcastTo_1b_ab_apply _ h2 r k).trans (shapeCast_a_1a_apply v h1 0 k)

theorem bias_row12 (v : Vec Ideal S12 .f32) (h1 : S12.ShapeCasts S1x12) (h2 : S1x12.Broadcasts S1536x12)
    (r : Fin 1536) (k : Fin 12) :
    broadcastTo S1536x12 (shapeCast S1x12 v h1) h2 (ix2 r k) = v (ix1 k) :=
  (broadcastTo_1b_ab_apply _ h2 r k).trans (shapeCast_a_1a_apply v h1 0 k)

theorem bias_row5 (v : Vec Ideal S5 .f32) (h1 : S5.ShapeCasts S1x5) (h2 : S1x5.Broadcasts S1536x5)
    (r : Fin 1536) (k : Fin 5) :
    broadcastTo S1536x5 (shapeCast S1x5 v h1) h2 (ix2 r k) = v (ix1 k) :=
  (broadcastTo_1b_ab_apply _ h2 r k).trans (shapeCast_a_1a_apply v h1 0 k)

/-- The rectified first layer at row r, hidden unit k, as the kernel computes it. -/
theorem hidden_apply (v0 : Vec Ideal S1536x128 .f32) (v2 : Vec Ideal S128x128 .f32) (v5 : Vec Ideal S128 .f32)
    (r : Fin 1536) (k : Fin 128) :
    maximumf (addf (matmul dot_S1536x128_S128x128_S1536x128_1_0_0_1_n_n none (k0_pay2 v0) (truncf .bf16 v2 bitsLt_bf16_f32)
        (constant (F := Ideal) S1536x128 .f32 0x00000000#32))
        (broadcastTo S1536x128 (shapeCast S1x128 v5 shapeCasts_S128_S1x128) broadcasts_S1x128_S1536x128))
      (broadcast S1536x128 (Scalar.ofBits (F := Ideal) .f32 0x00000000#32)) (ix2 r k)
    = max ((∑ h : Fin 128, v0 (ix2 r h) * v2 (ix2 h k)) + v5 (ix1 k)) 0 := by
  refine (maximumf_apply _ _ _).trans (congrArg₂ max ?_ ?_)
  · refine (addf_apply _ _ _).trans (congrArg₂ (· + ·) ?_ (bias_row128 v5 _ _ r k))
    exact plain_matmul_zero_apply none (k0_pay2 v0) (truncf .bf16 v2 bitsLt_bf16_f32) r k
  · exact Ideal.ofBits_zero_f32

/-- Entry (r, j) of the symbol block a point stores. -/
theorem sym_payload (v0 : Vec Ideal S1536x128 .f32) (v2 : Vec Ideal S128x128 .f32) (v5 : Vec Ideal S128 .f32)
    (v11 : Vec Ideal S128x12 .f32) (v15 : Vec Ideal S12 .f32) (r : Fin 1536) (j : Fin 12) :
    k0_pay3 v0 v2 v5 v11 v15 (ix2 r j)
      = (∑ k : Fin 128, max ((∑ h : Fin 128, v0 (ix2 r h) * v2 (ix2 h k)) + v5 (ix1 k)) 0 * v11 (ix2 k j)) + v15 (ix1 j) := by
  unfold k0_pay3
  refine (addf_apply _ _ _).trans (congrArg₂ (· + ·) ?_ (bias_row12 v15 _ _ r j))
  refine (plain_matmul_zero_apply none _ _ r j).trans (Finset.sum_congr rfl fun k _ => congrArg₂ (· * ·) ?_ rfl)
  exact hidden_apply v0 v2 v5 r k

/-- Entry (r, j) of the charge block a point stores. -/
theorem chg_payload (v0 : Vec Ideal S1536x128 .f32) (v20 : Vec Ideal S128x128 .f32) (v23 : Vec Ideal S128 .f32)
    (v29 : Vec Ideal S128x5 .f32) (v33 : Vec Ideal S5 .f32) (r : Fin 1536) (j : Fin 5) :
    k0_pay1 (k0_pay4 v0 v20 v23 v29) (k0_pay5 v33) (ix2 r j)
      = (∑ k : Fin 128, max ((∑ h : Fin 128, v0 (ix2 r h) * v20 (ix2 h k)) + v23 (ix1 k)) 0 * v29 (ix2 k j)) + v33 (ix1 j) := by
  unfold k0_pay1 k0_pay4 k0_pay5
  refine (addf_apply _ _ _).trans (congrArg₂ (· + ·) ?_ (bias_row5 v33 _ _ r j))
  refine (plain_matmul_zero_apply none _ _ r j).trans (Finset.sum_congr rfl fun k _ => congrArg₂ (· * ·) ?_ rfl)
  exact hidden_apply v0 v20 v23 r k

end Cert.KernelIdeal.Body

end
-- ==== Proof.Spec.lean ====
/-
  The three prediction heads as functions of the argument arrays, over the extended reals.

  An atom is a row of the embedding matrix x (12288 rows of 128 features); molecule b owns the 48 consecutive rows
  48 b, …, 48 b + 47.

  * A per-atom head with first layer (W1, b1) and second layer (W2, b2) sends row r to
        out[r, j] = Σ_k max (Σ_h x[r, h] · W1[h, k] + b1[k], 0) · W2[k, j] + b2[j].
    The symbol head has 12 outputs, the charge head 5.
  * The bond head looks at an ordered pair (l, m) of atoms of one molecule b.  Its first layer has 256 input
    features, the features of atom l followed by those of atom m, so its pre-activation at hidden unit p is
        Σ_h x[48 b + l, h] · W1[h, p] + Σ_h x[48 b + m, h] · W1[128 + h, p] + b1[p],
    a sum over the top half of W1 plus a sum over its bottom half, and
        out[(48 b + l) · 48 + m, j] = Σ_p max (that, 0) · W2[p, j] + b2[j].

  Both programs compute these functions: the kernel in the split form written here, the reference through one sum
  over all 256 features of the joined pair, which is the two half sums added (`sum_halves`).
-/
import Idealize.ShloMosaic.PureOps.Ideal
import Idealize.ShloMosaic.Lib.ValueIdx

noncomputable section

namespace Cert.Heads

open Idealize.ShloMosaic Idealize.ShloMosaic.ValueIdx

/-- The literal shapes of the arrays the heads are functions of. -/
abbrev SX : Shape := ⟨2, ![12288, 128]⟩
abbrev SW : Shape := ⟨2, ![128, 128]⟩
abbrev SWW : Shape := ⟨2, ![256, 128]⟩
abbrev SB : Shape := ⟨1, ![128]⟩
abbrev SW12 : Shape := ⟨2, ![128, 12]⟩
abbrev SB12 : Shape := ⟨1, ![12]⟩
abbrev SW5 : Shape := ⟨2, ![128, 5]⟩
abbrev SB5 : Shape := ⟨1, ![5]⟩
abbrev SO12 : Shape := ⟨2, ![12288, 12]⟩
abbrev SO5 : Shape := ⟨2, ![12288, 5]⟩
abbrev SP5 : Shape := ⟨2, ![589824, 5]⟩

/-- Hidden unit `k` of a per-atom head at atom `r`, after the rectifier. -/
def hidden (x : SX.Idx → EReal) (W1 : SW.Idx → EReal) (b1 : SB.Idx → EReal) (r : Fin 12288) (k : Fin 128) : EReal :=
  max ((∑ h : Fin 128, x (ix2 r h) * W1 (ix2 h k)) + b1 (ix1 k)) 0

/-- The symbol head at atom `r`, output `j`. -/
def symAt (x : SX.Idx → EReal) (W1 : SW.Idx → EReal) (b1 : SB.Idx → EReal) (W2 : SW12.Idx → EReal) (b2 : SB12.Idx → EReal)
    (r : Fin 12288) (j : Fin 12) : EReal :=
  (∑ k : Fin 128, hidden x W1 b1 r k * W2 (ix2 k j)) + b2 (ix1 j)

/-- The charge head at atom `r`, output `j`. -/
def chgAt (x : SX.Idx → EReal) (W1 : SW.Idx → EReal) (b1 : SB.Idx → EReal) (W2 : SW5.Idx → EReal) (b2 : SB5.Idx → EReal)
    (r : Fin 12288) (j : Fin 5) : EReal :=
  (∑ k : Fin 128, hidden x W1 b1 r k * W2 (ix2 k j)) + b2 (ix1 j)

/-- The symbol logits as an array. -/
def sym (x : SX.Idx → EReal) (W1 : SW.Idx → EReal) (b1 : SB.Idx → EReal) (W2 : SW12.Idx → EReal) (b2 : SB12.Idx → EReal) :
    SO12.Idx → EReal := fun i => symAt x W1 b1 W2 b2 ⟨(i 0).val, (i 0).isLt⟩ ⟨(i 1).val, (i 1).isLt⟩

/-- The charge logits as an array. -/
def chg (x : SX.Idx → EReal) (W1 : SW.Idx → EReal) (b1 : SB.Idx → EReal) (W2 : SW5.Idx → EReal) (b2 : SB5.Idx → EReal) :
    SO5.Idx → EReal := fun i => chgAt x W1 b1 W2 b2 ⟨(i 0).val, (i 0).isLt⟩ ⟨(i 1).val, (i 1).isLt⟩

theorem sym_ix2 (x : SX.Idx → EReal) (W1 : SW.Idx → EReal) (b1 : SB.Idx → EReal) (W2 : SW12.Idx → EReal) (b2 : SB12.Idx → EReal)
    (r : Fin 12288) (j : Fin 12) : sym x W1 b1 W2 b2 (ix2 r j) = symAt x W1 b1 W2 b2 r j := rfl

theorem chg_ix2 (x : SX.Idx → EReal) (W1 : SW.Idx → EReal) (b1 : SB.Idx → EReal) (W2 : SW5.Idx → EReal) (b2 : SB5.Idx → EReal)
    (r : Fin 12288) (j : Fin 5) : chg x W1 b1 W2 b2 (ix2 r j) = chgAt x W1 b1 W2 b2 r j := rfl

/-- The row of the embedding matrix that holds atom `l` of molecule `b`. -/
def atom (b : Fin 256) (l : Fin 48) : Fin 12288 := ⟨48 * b.val + l.val, by have := b.isLt; have := l.isLt; omega⟩

/-- Row `h` of the top half of the pair weights, and of the bottom half. -/
def top (h : Fin 128) : Fin 256 := ⟨h.val, by have := h.isLt; omega⟩
def bot (h : Fin 128) : Fin 256 := ⟨128 + h.val, by have := h.isLt; omega⟩

/-- Hidden unit `p` of the bond head at the pair (`l`, `m`) of molecule `b`, after the rectifier: the row atom
    through the top half of the weights, the column atom through the bottom half. -/
def pairHidden (x : SX.Idx → EReal) (W1 : SWW.Idx → EReal) (b1 : SB.Idx → EReal) (b : Fin 256) (l m : Fin 48) (p : Fin 128) : EReal :=
  max (((∑ h : Fin 128, x (ix2 (atom b l) h) * W1 (ix2 (top h) p))
      + (∑ h : Fin 128, x (ix2 (atom b m) h) * W1 (ix2 (bot h) p))) + b1 (ix1 p)) 0

/-- The bond head at the pair (`l`, `m`) of molecule `b`, output `j`. -/
def bondAt (x : SX.Idx → EReal) (W1 : SWW.Idx → EReal) (b1 : SB.Idx → EReal) (W2 : SW5.Idx → EReal) (b2 : SB5.Idx → EReal)
    (b : Fin 256) (l m : Fin 48) (j : Fin 5) : EReal :=
  (∑ p : Fin 128, pairHidden x W1 b1 b l m p * W2 (ix2 p j)) + b2 (ix1 j)

/-- The bond logits as an array: row `(48 b + l) · 48 + m` is the pair (`l`, `m`) of molecule `b`. -/
def bonds (x : SX.Idx → EReal) (W1 : SWW.Idx → EReal) (b1 : SB.Idx → EReal) (W2 : SW5.Idx → EReal) (b2 : SB5.Idx → EReal) :
    SP5.Idx → EReal := fun i =>
  bondAt x W1 b1 W2 b2 ⟨(i 0).val / 2304, by have h : (i 0).val < 589824 := (i 0).isLt; omega⟩
    ⟨(i 0).val / 48 % 48, Nat.mod_lt _ (by decide)⟩ ⟨(i 0).val % 48, Nat.mod_lt _ (by decide)⟩ ⟨(i 1).val, (i 1).isLt⟩

/-- A sum over 256 features is the sum over the first 128 plus the sum over the last 128. -/
theorem sum_halves (f : Fin 256 → EReal) : (∑ h : Fin 256, f h) = (∑ h : Fin 128, f (top h)) + (∑ h : Fin 128, f (bot h)) := by
  have e := Fin.sum_univ_add (a := 128) (b := 128) f
  rw [e]
  refine congrArg₂ (· + ·) (Finset.sum_congr rfl fun h _ => congrArg f (Fin.ext rfl)) (Finset.sum_congr rfl fun h _ => congrArg f (Fin.ext rfl))

end Cert.Heads

end
-- ==== Proof.MlpArrays.lean ====
/-
  From the blocks of the per-atom kernel to its two result arrays.

  Grid point t of the first region reads rows 1536 t, …, 1536 t + 1535 of the embedding matrix and the whole of each
  weight matrix and bias vector, and writes back rows 1536 t, …, 1536 t + 1535 of the symbol logits and of the charge
  logits.  An entry of a head at atom r depends on row r of the embeddings alone, so what point t writes back is
  block t of the head as ONE function of the whole argument arrays; the eight blocks tile the 12288 rows, so after
  the region each result array is that function.
-/
import proofs.«144118_j27900107555247_2_alg».proof.Proof.Gen.KernelIdeal.Frame
import proofs.«144118_j27900107555247_2_alg».proof.Proof.MlpBody
import proofs.«144118_j27900107555247_2_alg».proof.Proof.Spec

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window of the first region sits at grid point t: the embeddings and the two results at block row t,
    every weight and bias at its one block. -/
theorem index_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row 1536 t + r of the 12288 atoms. -/
def rowOf (t : Fin cfg0.N) (r : Fin 1536) : Fin 12288 :=
  ⟨1536 * t.val + r.val, by have h : t.val < 8 := (show cfg0.N = 8 from N_0) ▸ t.isLt; have := r.isLt; omega⟩

/-- The embeddings' block at point t is rows 1536 t … of the array. -/
theorem x_block (c : Dev nD) (t : Fin cfg0.N) (r : Fin 1536) (h : Fin 128) :
    (iblk0 V c 0 t : Vec Ideal S1536x128 .f32) (ix2 r h) = (V c main_arg0 : S12288x128.Idx → EReal) (ix2 (rowOf t r) h) := by
  obtain ⟨⟨e0, e1⟩, -⟩ := index_facts0 t
  unfold iblk0
  show V c main_arg0 (((cfg0.win 0).blk t).view.emb (ix2 r h)) = V c main_arg0 (ix2 (rowOf t r) h)
  refine congrArg (V c main_arg0) (funext fun a => Fin.ext ?_)
  match a with
  | ⟨0, _⟩ => show win0_0.index t (0 : Fin 2) * 1536 + 1 * r.val = 1536 * t.val + r.val; omega
  | ⟨1, _⟩ => show win0_0.index t (1 : Fin 2) * 128 + 1 * h.val = h.val; omega

/-- A weight matrix's or bias vector's block at any point is the whole array. -/
theorem w1s_block (c : Dev nD) (t : Fin cfg0.N) : (iblk0 V c 1 t : Vec Ideal S128x128 .f32) = V c main_arg2 := by
  obtain ⟨-, ⟨e0, e1⟩, -⟩ := index_facts0 t
  unfold iblk0
  refine funext fun (y : S128x128.Idx) => ?_
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem b1s_block (c : Dev nD) (t : Fin cfg0.N) : (iblk0 V c 2 t : Vec Ideal S128 .f32) = V c main_arg3 := by
  obtain ⟨-, -, e0, -⟩ := index_facts0 t
  unfold iblk0
  refine funext fun (y : S128.Idx) => ?_
  show V c main_arg3 (((cfg0.win 2).blk t).view.emb y) = V c main_arg3 y
  refine congrArg (V c main_arg3) (funext fun a => Fin.ext ?_)
  match a with
  | ⟨0, _⟩ => show win0_2.index t (0 : Fin 1) * 128 + 1 * (y 0).val = (y 0).val; omega

theorem w2s_block (c : Dev nD) (t : Fin cfg0.N) : (iblk0 V c 3 t : Vec Ideal S128x12 .f32) = V c main_arg4 := by
  obtain ⟨-, -, -, ⟨e0, e1⟩, -⟩ := index_facts0 t
  unfold iblk0
  refine funext fun (y : S128x12.Idx) => ?_
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 12 + 1 * (y 1).val = (y 1).val; omega

theorem b2s_block (c : Dev nD) (t : Fin cfg0.N) : (iblk0 V c 4 t : Vec Ideal S12 .f32) = V c main_arg5 := by
  obtain ⟨-, -, -, -, e0, -⟩ := index_facts0 t
  unfold iblk0
  refine funext fun (y : S12.Idx) => ?_
  show V c main_arg5 (((cfg0.win 4).blk t).view.emb y) = V c main_arg5 y
  refine congrArg (V c main_arg5) (funext fun a => Fin.ext ?_)
  match a with
  | ⟨0, _⟩ => show win0_4.index t (0 : Fin 1) * 12 + 1 * (y 0).val = (y 0).val; omega

theorem w1c_block (c : Dev nD) (t : Fin cfg0.N) : (iblk0 V c 5 t : Vec Ideal S128x128 .f32) = V c main_arg6 := by
  obtain ⟨-, -, -, -, -, ⟨e0, e1⟩, -⟩ := index_facts0 t
  unfold iblk0
  refine funext fun (y : S128x128.Idx) => ?_
  show V c main_arg6 (((cfg0.win 5).blk t).view.emb y) = V c main_arg6 y
  refine congrArg (V c main_arg6) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem b1c_block (c : Dev nD) (t : Fin cfg0.N) : (iblk0 V c 6 t : Vec Ideal S128 .f32) = V c main_arg7 := by
  obtain ⟨-, -, -, -, -, -, e0, -⟩ := index_facts0 t
  unfold iblk0
  refine funext fun (y : S128.Idx) => ?_
  show V c main_arg7 (((cfg0.win 6).blk t).view.emb y) = V c main_arg7 y
  refine congrArg (V c main_arg7) (funext fun a => Fin.ext ?_)
  match a with
  | ⟨0, _⟩ => show win0_6.index t (0 : Fin 1) * 128 + 1 * (y 0).val = (y 0).val; omega

theorem w2c_block (c : Dev nD) (t : Fin cfg0.N) : (iblk0 V c 7 t : Vec Ideal S128x5 .f32) = V c main_arg8 := by
  obtain ⟨-, -, -, -, -, -, -, ⟨e0, e1⟩, -⟩ := index_facts0 t
  unfold iblk0
  refine funext fun (y : S128x5.Idx) => ?_
  show V c main_arg8 (((cfg0.win 7).blk t).view.emb y) = V c main_arg8 y
  refine congrArg (V c main_arg8) (funext fun a => Fin.ext ?_)
  match a with
  | ⟨0, _⟩ => show win0_7.index t (0 : Fin 2) * 128 + 1 * (y 0).val = (y 0).val; omega
  | ⟨1, _⟩ => show win0_7.index t (1 : Fin 2) * 5 + 1 * (y 1).val = (y 1).val; omega

theorem b2c_block (c : Dev nD) (t : Fin cfg0.N) : (iblk0 V c 8 t : Vec Ideal S5 .f32) = V c main_arg9 := by
  obtain ⟨-, -, -, -, -, -, -, -, e0, -⟩ := index_facts0 t
  unfold iblk0
  refine funext fun (y : S5.Idx) => ?_
  show V c main_arg9 (((cfg0.win 8).blk t).view.emb y) = V c main_arg9 y
  refine congrArg (V c main_arg9) (funext fun a => Fin.ext ?_)
  match a with
  | ⟨0, _⟩ => show win0_8.index t (0 : Fin 1) * 5 + 1 * (y 0).val = (y 0).val; omega

/-- The symbol logits as a function of the arrays the region finds. -/
abbrev symOf (c : Dev nD) : S12288x12.Idx → EReal :=
  Heads.sym (V c main_arg0) (V c main_arg2) (V c main_arg3) (V c main_arg4) (V c main_arg5)

/-- The charge logits as a function of the arrays the region finds. -/
abbrev chgOf (c : Dev nD) : S12288x5.Idx → EReal :=
  Heads.chg (V c main_arg0) (V c main_arg6) (V c main_arg7) (V c main_arg8) (V c main_arg9)

/-- What point t writes back of the symbol logits is block t of the head. -/
theorem flushed_sym (c : Dev nD) (t : Fin cfg0.N) :
    (dat0 V c).flushed 9 t = ((cfg0.win 9).blk t).view.read (Elt Ideal) (symOf V c) := by
  show (cfg0.win 9).cut (grid0.coords t) ((dat0 V c).after 9 t) = _
  rw [after0_9]
  unfold out0_9
  rw [View.canon_unit_zero hz2]
  simp only [View.ld_unit_zero (S := S1536x128) hz2, View.ld_unit_zero (S := S128x128) hz2, View.ld_unit_zero (S := S128) hz1,
    View.ld_unit_zero (S := S128x12) hz2, View.ld_unit_zero (S := S12) hz1]
  rw [w1s_block, b1s_block, w2s_block, b2s_block]
  obtain ⟨-, -, -, -, -, -, -, -, -, ⟨e0, e1⟩, -⟩ := index_facts0 t
  refine funext fun (y : S1536x12.Idx) => ?_
  obtain ⟨r, j, rfl⟩ : ∃ (r : Fin 1536) (j : Fin 12), y = ix2 r j := ⟨y 0, y 1, eq_ix2 y⟩
  show k0_pay3 (iblk0 V c 0 t) (V c main_arg2) (V c main_arg3) (V c main_arg4) (V c main_arg5) (ix2 r j)
    = symOf V c (((cfg0.win 9).blk t).view.emb (ix2 r j))
  have hemb : ((cfg0.win 9).blk t).view.emb (ix2 r j) = (ix2 (rowOf t r) j : S12288x12.Idx) := funext fun a => Fin.ext (by
    match a with
    | ⟨0, _⟩ => show win0_9.index t (0 : Fin 2) * 1536 + 1 * r.val = 1536 * t.val + r.val; omega
    | ⟨1, _⟩ => show win0_9.index t (1 : Fin 2) * 12 + 1 * j.val = j.val; omega)
  rw [hemb]
  refine (sym_payload _ _ _ _ _ r j).trans ?_
  show _ = Heads.symAt _ _ _ _ _ (rowOf t r) j
  unfold Heads.symAt Heads.hidden
  refine congrArg (· + _) (Finset.sum_congr rfl fun k _ => congrArg (· * _) (congrArg (max · 0) (congrArg (· + _)
    (Finset.sum_congr rfl fun h _ => congrArg (· * _) (x_block V c t r h)))))

/-- What point t writes back of the charge logits is block t of the head. -/
theorem flushed_chg (c : Dev nD) (t : Fin cfg0.N) :
    (dat0 V c).flushed 10 t = ((cfg0.win 10).blk t).view.read (Elt Ideal) (chgOf V c) := by
  show (cfg0.win 10).cut (grid0.coords t) ((dat0 V c).after 10 t) = _
  rw [after0_10]
  unfold out0_10
  rw [View.canon_unit_zero hz2]
  simp only [View.ld_unit_zero (S := S1536x128) hz2, View.ld_unit_zero (S := S128x128) hz2, View.ld_unit_zero (S := S128) hz1,
    View.ld_unit_zero (S := S128x5) hz2, View.ld_unit_zero (S := S5) hz1]
  rw [w1c_block, b1c_block, w2c_block, b2c_block]
  obtain ⟨-, -, -, -, -, -, -, -, -, -, ⟨e0, e1⟩⟩ := index_facts0 t
  refine funext fun (y : S1536x5.Idx) => ?_
  obtain ⟨r, j, rfl⟩ : ∃ (r : Fin 1536) (j : Fin 5), y = ix2 r j := ⟨y 0, y 1, eq_ix2 y⟩
  show k0_pay1 (k0_pay4 (iblk0 V c 0 t) (V c main_arg6) (V c main_arg7) (V c main_arg8)) (k0_pay5 (V c main_arg9)) (ix2 r j)
    = chgOf V c (((cfg0.win 10).blk t).view.emb (ix2 r j))
  have hemb : ((cfg0.win 10).blk t).view.emb (ix2 r j) = (ix2 (rowOf t r) j : S12288x5.Idx) := funext fun a => Fin.ext (by
    match a with
    | ⟨0, _⟩ => show win0_10.index t (0 : Fin 2) * 1536 + 1 * r.val = 1536 * t.val + r.val; omega
    | ⟨1, _⟩ => show win0_10.index t (1 : Fin 2) * 5 + 1 * j.val = j.val; omega)
  rw [hemb]
  refine (chg_payload _ _ _ _ _ r j).trans ?_
  show _ = Heads.chgAt _ _ _ _ _ (rowOf t r) j
  unfold Heads.chgAt Heads.hidden
  refine congrArg (· + _) (Finset.sum_congr rfl fun k _ => congrArg (· * _) (congrArg (max · 0) (congrArg (· + _)
    (Finset.sum_congr rfl fun h _ => congrArg (· * _) (x_block V c t r h)))))

/-- Every row of the symbol logits lies in the block of the point 1536 rows wide that holds it. -/
theorem cover_sym (i : S12288x12.Idx) : ∃ t : Fin cfg0.N, (cfg0.win 9).flush t = true ∧ i ∈ ((cfg0.win 9).blk t).view.set := by
  have hi0 : (i 0).val < 12288 := (i 0).isLt
  have hi1 : (i 1).val < 12 := (i 1).isLt
  obtain ⟨t, ht⟩ : ∃ t : Fin cfg0.N, t.val = (i 0).val / 1536 := ⟨⟨(i 0).val / 1536, by rw [show cfg0.N = 8 from N_0]; omega⟩, rfl⟩
  obtain ⟨-, -, -, -, -, -, -, -, -, ⟨e0, e1⟩, -⟩ := index_facts0 t
  refine ⟨t, flush0_9 t, ?_⟩
  show i ∈ ((View.whole main_v0_0).slice (win0_9.rect t)).set
  rw [View.set_slice_whole, Rect.mem_set_unit]
  intro a
  match a with
  | ⟨0, _⟩ => show win0_9.index t (0 : Fin 2) * 1536 ≤ (i 0).val ∧ (i 0).val < win0_9.index t (0 : Fin 2) * 1536 + 1536; omega
  | ⟨1, _⟩ => show win0_9.index t (1 : Fin 2) * 12 ≤ (i 1).val ∧ (i 1).val < win0_9.index t (1 : Fin 2) * 12 + 12; omega

theorem cover_chg (i : S12288x5.Idx) : ∃ t : Fin cfg0.N, (cfg0.win 10).flush t = true ∧ i ∈ ((cfg0.win 10).blk t).view.set := by
  have hi0 : (i 0).val < 12288 := (i 0).isLt
  have hi1 : (i 1).val < 5 := (i 1).isLt
  obtain ⟨t, ht⟩ : ∃ t : Fin cfg0.N, t.val = (i 0).val / 1536 := ⟨⟨(i 0).val / 1536, by rw [show cfg0.N = 8 from N_0]; omega⟩, rfl⟩
  obtain ⟨-, -, -, -, -, -, -, -, -, -, ⟨e0, e1⟩⟩ := index_facts0 t
  refine ⟨t, flush0_10 t, ?_⟩
  show i ∈ ((View.whole main_v0_1).slice (win0_10.rect t)).set
  rw [View.set_slice_whole, Rect.mem_set_unit]
  intro a
  match a with
  | ⟨0, _⟩ => show win0_10.index t (0 : Fin 2) * 1536 ≤ (i 0).val ∧ (i 0).val < win0_10.index t (0 : Fin 2) * 1536 + 1536; omega
  | ⟨1, _⟩ => show win0_10.index t (1 : Fin 2) * 5 ≤ (i 1).val ∧ (i 1).val < win0_10.index t (1 : Fin 2) * 5 + 5; omega

/-- After the first region the symbol array is the symbol head of the arrays the region found. -/
theorem final_sym (c : Dev nD) : (dat0 V c).arrAt 9 cfg0.N = symOf V c :=
  (dat0 V c).arrAt_eq_of_cover 9 (symOf V c) (fun t _ => flushed_sym V c t) (fun i => cover_sym i)

/-- After the first region the charge array is the charge head of the arrays the region found. -/
theorem final_chg (c : Dev nD) : (dat0 V c).arrAt 10 cfg0.N = chgOf V c :=
  (dat0 V c).arrAt_eq_of_cover 10 (chgOf V c) (fun t _ => flushed_chg V c t) (fun i => cover_chg i)

end Cert.KernelIdeal.Arrays

end
-- ==== Proof.BondBody.lean ====
/-
  What one grid point of the bond kernel stores, entry by entry, over the extended reals.

  The point holds four molecules, 48 atoms each, 128 features per atom.  It flattens them to 192 rows, multiplies the
  rows once by the top half of the pair weights (u) and once by the bottom half (v), and for every ordered pair (l, m)
  of atoms of one molecule b forms u[b, l, ·] + v[b, m, ·] + bias, rectifies it, multiplies by the second-layer weights
  and adds the second-layer bias.  The reshapes between [4, 48, ·], [192, ·], [4, 48, 48, ·] and [9216, ·] keep the
  row-major position, so row 48 b + l of the flat form is atom l of molecule b and row (48 b + l) · 48 + m is the
  pair (l, m) of molecule b.  Entry (b, l, m, j) of what is stored is therefore
      Σ_p max (Σ_h x[b, l, h] · Wtop[h, p] + Σ_h x[b, m, h] · Wbot[h, p] + b1[p], 0) · W2[p, j] + b2[j].
-/
import proofs.«144118_j27900107555247_2_alg».proof.Proof.Gen.KernelIdeal.Skeleton
import proofs.«144118_j27900107555247_2_alg».proof.Proof.LibMatmul
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.LibMatmul

variable {α : Type}

/-- Row 48 b + l of the 192 flattened rows. -/
def flatRow (b : Fin 4) (l : Fin 48) : Fin 192 := ⟨48 * b.val + l.val, by have := b.isLt; have := l.isLt; omega⟩

/-- Row (48 b + l) · 48 + m of the 9216 flattened pairs. -/
def flatPair (b : Fin 4) (l m : Fin 48) : Fin 9216 :=
  ⟨(48 * b.val + l.val) * 48 + m.val, by have := b.isLt; have := l.isLt; have := m.isLt; omega⟩

/-- Molecules flattened to rows: row 48 b + l is atom l of molecule b. -/
theorem rows_of_mols (x : S4x48x128.Idx → α) (h : S4x48x128.ShapeCasts S192x128) (b : Fin 4) (l : Fin 48) (f : Fin 128) :
    shapeCast S192x128 x h (ix2 (flatRow b l) f) = x (ix3 b l f) :=
  shapeCast_apply x h _ _ (by
    rw [Shape.rowMajor_val_three, Shape.rowMajor_val_two]
    show (b.val * 48 + l.val) * 128 + f.val = (48 * b.val + l.val) * 128 + f.val
    omega)

/-- Rows regrouped by molecule. -/
theorem mols_of_rows (x : S192x128.Idx → α) (h : S192x128.ShapeCasts S4x48x128) (b : Fin 4) (l : Fin 48) (p : Fin 128) :
    shapeCast S4x48x128 x h (ix3 b l p) = x (ix2 (flatRow b l) p) :=
  shapeCast_apply x h _ _ (by
    rw [Shape.rowMajor_val_three, Shape.rowMajor_val_two]
    show (48 * b.val + l.val) * 128 + p.val = (b.val * 48 + l.val) * 128 + p.val
    omega)

/-- The row atom's term, given a unit third axis and repeated along it: at (b, l, m, p) it is the term of atom l. -/
theorem row_atom (x : S4x48x128.Idx → α) (h1 : S4x48x128.ShapeCasts S4x48x1x128) (h2 : S4x48x1x128.Broadcasts S4x48x48x128)
    (b : Fin 4) (l m : Fin 48) (p : Fin 128) :
    broadcastTo S4x48x48x128 (shapeCast S4x48x1x128 x h1) h2 (ix4 b l m p) = x (ix3 b l p) := by
  refine (broadcastTo_apply _ h2 (ix4 b l m p) (ix4 b l (0 : Fin 1) p) fun a => ?_).trans ?_
  · match a with
    | ⟨0, _⟩ => show b.val = if (4 : Nat) = 1 then 0 else b.val; rw [if_neg (by decide)]
    | ⟨1, _⟩ => show l.val = if (48 : Nat) = 1 then 0 else l.val; rw [if_neg (by decide)]
    | ⟨2, _⟩ => show 0 = if (1 : Nat) = 1 then 0 else m.val; rw [if_pos rfl]
    | ⟨3, _⟩ => show p.val = if (128 : Nat) = 1 then 0 else p.val; rw [if_neg (by decide)]
  · exact shapeCast_apply x h1 _ _ (by
      rw [Shape.rowMajor_val_three, Shape.rowMajor_val_four]
      show (b.val * 48 + l.val) * 128 + p.val = ((b.val * 48 + l.val) * 1 + 0) * 128 + p.val
      omega)

/-- The column atom's term, given a unit second axis and repeated along it: at (b, l, m, p) it is the term of atom m. -/
theorem col_atom (x : S4x48x128.Idx → α) (h1 : S4x48x128.ShapeCasts S4x1x48x128) (h2 : S4x1x48x128.Broadcasts S4x48x48x128)
    (b : Fin 4) (l m : Fin 48) (p : Fin 128) :
    broadcastTo S4x48x48x128 (shapeCast S4x1x48x128 x h1) h2 (ix4 b l m p) = x (ix3 b m p) := by
  refine (broadcastTo_apply _ h2 (ix4 b l m p) (ix4 b (0 : Fin 1) m p) fun a => ?_).trans ?_
  · match a with
    | ⟨0, _⟩ => show b.val = if (4 : Nat) = 1 then 0 else b.val; rw [if_neg (by decide)]
    | ⟨1, _⟩ => show 0 = if (1 : Nat) = 1 then 0 else l.val; rw [if_pos rfl]
    | ⟨2, _⟩ => show m.val = if (48 : Nat) = 1 then 0 else m.val; rw [if_neg (by decide)]
    | ⟨3, _⟩ => show p.val = if (128 : Nat) = 1 then 0 else p.val; rw [if_neg (by decide)]
  · exact shapeCast_apply x h1 _ _ (by
      rw [Shape.rowMajor_val_three, Shape.rowMajor_val_four]
      show (b.val * 48 + m.val) * 128 + p.val = ((b.val * 1 + 0) * 48 + m.val) * 128 + p.val
      omega)

/-- The first-layer bias repeated over every pair: at (b, l, m, p) it is the bias at p. -/
theorem bias_pairs (v : S128.Idx → α) (h1 : S128.ShapeCasts S1x1x1x128) (h2 : S1x1x1x128.Broadcasts S4x48x48x128)
    (b : Fin 4) (l m : Fin 48) (p : Fin 128) :
    broadcastTo S4x48x48x128 (shapeCast S1x1x1x128 v h1) h2 (ix4 b l m p) = v (ix1 p) := by
  refine (broadcastTo_apply _ h2 (ix4 b l m p) (ix4 (0 : Fin 1) (0 : Fin 1) (0 : Fin 1) p) fun a => ?_).trans ?_
  · match a with
    | ⟨0, _⟩ => show 0 = if (1 : Nat) = 1 then 0 else b.val; rw [if_pos rfl]
    | ⟨1, _⟩ => show 0 = if (1 : Nat) = 1 then 0 else l.val; rw [if_pos rfl]
    | ⟨2, _⟩ => show 0 = if (1 : Nat) = 1 then 0 else m.val; rw [if_pos rfl]
    | ⟨3, _⟩ => show p.val = if (128 : Nat) = 1 then 0 else p.val; rw [if_neg (by decide)]
  · exact shapeCast_apply v h1 _ _ (by
      rw [Shape.rowMajor_val_one, Shape.rowMajor_val_four]
      show p.val = ((0 * 1 + 0) * 1 + 0) * 128 + p.val
      omega)

/-- Pairs flattened to rows: row (48 b + l) · 48 + m is the pair (l, m) of molecule b. -/
theorem rows_of_pairs (x : S4x48x48x128.Idx → α) (h : S4x48x48x128.ShapeCasts S9216x128) (b : Fin 4) (l m : Fin 48) (p : Fin 128) :
    shapeCast S9216x128 x h (ix2 (flatPair b l m) p) = x (ix4 b l m p) :=
  shapeCast_apply x h _ _ (by
    rw [Shape.rowMajor_val_four, Shape.rowMajor_val_two]
    show ((b.val * 48 + l.val) * 48 + m.val) * 128 + p.val = ((48 * b.val + l.val) * 48 + m.val) * 128 + p.val
    omega)

/-- Rows regrouped by pair. -/
theorem pairs_of_rows (x : S9216x5.Idx → α) (h : S9216x5.ShapeCasts S4x48x48x5) (b : Fin 4) (l m : Fin 48) (j : Fin 5) :
    shapeCast S4x48x48x5 x h (ix4 b l m j) = x (ix2 (flatPair b l m) j) :=
  shapeCast_apply x h _ _ (by
    rw [Shape.rowMajor_val_four, Shape.rowMajor_val_two]
    show ((48 * b.val + l.val) * 48 + m.val) * 5 + j.val = ((b.val * 48 + l.val) * 48 + m.val) * 5 + j.val
    omega)

/-- The second-layer bias laid out as one row and repeated down 9216 rows. -/
theorem bias_row9216 (v : Vec Ideal S5 .f32) (h1 : S5.ShapeCasts S1x5) (h2 : S1x5.Broadcasts S9216x5)
    (r : Fin 9216) (k : Fin 5) :
    broadcastTo S9216x5 (shapeCast S1x5 v h1) h2 (ix2 r k) = v (ix1 k) :=
  (broadcastTo_1b_ab_apply _ h2 r k).trans (shapeCast_a_1a_apply v h1 0 k)

/-- One half of the first layer at atom l of molecule b: the flattened rows times a half of the pair weights, regrouped. -/
theorem half_layer (v0 : Vec Ideal S4x48x128 .f32) (w : Vec Ideal S128x128 .f32) (b : Fin 4) (l : Fin 48) (p : Fin 128) :
    shapeCast S4x48x128 (matmul dot_S192x128_S128x128_S192x128_1_0_0_1_n_n none
        (truncf .bf16 (shapeCast S192x128 (shapeCast S4x48x128 v0 shapeCasts_S4x48x128_S4x48x128) shapeCasts_S4x48x128_S192x128) bitsLt_bf16_f32)
        (truncf .bf16 (shapeCast S128x128 w shapeCasts_S128x128_S128x128) bitsLt_bf16_f32)
        (constant (F := Ideal) S192x128 .f32 0x00000000#32)) shapeCasts_S192x128_S4x48x128 (ix3 b l p)
      = ∑ h : Fin 128, v0 (ix3 b l h) * w (ix2 h p) := by
  refine (mols_of_rows _ _ b l p).trans ?_
  refine (plain_matmul_zero_apply none _ _ (flatRow b l) p).trans (Finset.sum_congr rfl fun h _ => congrArg₂ (· * ·) ?_ ?_)
  · refine (truncf_apply (ψ := FTy.bf16) _ bitsLt_bf16_f32 _).trans ((rows_of_mols _ _ b l h).trans ?_)
    rw [shapeCast_self]
  · refine (truncf_apply (ψ := FTy.bf16) _ bitsLt_bf16_f32 _).trans ?_
    rw [shapeCast_self]

/-- Entry (b, l, m, j) of the bond block a point stores. -/
theorem bond_payload (v0 : Vec Ideal S4x48x128 .f32) (v4 v7 : Vec Ideal S128x128 .f32) (v14 : Vec Ideal S128 .f32)
    (v27 : Vec Ideal S128x5 .f32) (v30 : Vec Ideal S5 .f32) (b : Fin 4) (l m : Fin 48) (j : Fin 5) :
    k1_pay1 v0 v4 v7 v14 v27 v30 (ix4 b l m j)
      = (∑ p : Fin 128, max (((∑ h : Fin 128, v0 (ix3 b l h) * v4 (ix2 h p)) + (∑ h : Fin 128, v0 (ix3 b m h) * v7 (ix2 h p)))
            + v14 (ix1 p)) 0 * v27 (ix2 p j)) + v30 (ix1 j) := by
  unfold k1_pay1
  refine (pairs_of_rows _ _ b l m j).trans ?_
  refine (addf_apply _ _ _).trans (congrArg₂ (· + ·) ?_ (bias_row9216 v30 _ _ _ j))
  refine (plain_matmul_zero_apply none _ _ (flatPair b l m) j).trans (Finset.sum_congr rfl fun p _ => congrArg₂ (· * ·) ?_ rfl)
  refine (truncf_apply (ψ := FTy.bf16) _ bitsLt_bf16_f32 _).trans ((rows_of_pairs _ _ b l m p).trans ?_)
  refine (maximumf_apply _ _ _).trans (congrArg₂ max ?_ Ideal.ofBits_zero_f32)
  refine (addf_apply _ _ _).trans (congrArg₂ (· + ·) ?_ (bias_pairs v14 _ _ b l m p))
  refine (addf_apply _ _ _).trans (congrArg₂ (· + ·) ?_ ?_)
  · exact (row_atom _ _ _ b l m p).trans (half_layer v0 v4 b l p)
  · exact (col_atom _ _ _ b l m p).trans (half_layer v0 v7 b m p)

end Cert.KernelIdeal.Body

end
-- ==== Proof.BondArrays.lean ====
/-
  From the blocks of the bond kernel to its result array.

  Grid point t of the second region reads molecules 4 t, …, 4 t + 3 of the embeddings (as the region finds them,
  grouped [256, 48, 128]) and the whole of each weight matrix and bias vector, and writes back molecules
  4 t, …, 4 t + 3 of the pair logits [256, 48, 48, 5].  An entry for the pair (l, m) of molecule b depends on the two
  atoms' rows alone, so what point t writes back is block t of ONE function of the region's arrays; the sixty-four
  blocks tile the 256 molecules, so after the region the result array is that function.
-/
import proofs.«144118_j27900107555247_2_alg».proof.Proof.Gen.KernelIdeal.Frame
import proofs.«144118_j27900107555247_2_alg».proof.Proof.BondBody

set_option maxRecDepth 16384

noncomputable section

namespace Cert.KernelIdeal.PairArrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Where each window of the second region sits at grid point t: the grouped embeddings and the result at block t
    along the molecules, every weight and bias at its one block. -/
theorem index_facts1 : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 4) = t.val ∧ win1_6.index t (1 : Fin 4) = 0 ∧ win1_6.index t (2 : Fin 4) = 0 ∧ win1_6.index t (3 : Fin 4) = 0) :=
  (by decide +kernel : ∀ t : Fin grid1.N, _)

/-- Molecule 4 t + b of the 256. -/
def molOf (t : Fin cfg1.N) (b : Fin 4) : Fin 256 :=
  ⟨4 * t.val + b.val, by have h : t.val < 64 := (show cfg1.N = 64 from N_1) ▸ t.isLt; have := b.isLt; omega⟩

/-- The grouped embeddings' block at point t is molecules 4 t … of the array. -/
theorem xm_block (c : Dev nD) (t : Fin cfg1.N) (b : Fin 4) (l : Fin 48) (h : Fin 128) :
    (iblk1 V c 0 t : Vec Ideal S4x48x128 .f32) (ix3 b l h) = (V c main_v1 : S256x48x128.Idx → EReal) (ix3 (molOf t b) l h) := by
  obtain ⟨⟨e0, e1, e2⟩, -⟩ := index_facts1 t
  unfold iblk1
  show V c main_v1 (((cfg1.win 0).blk t).view.emb (ix3 b l h)) = V c main_v1 (ix3 (molOf t b) l h)
  refine congrArg (V c main_v1) (funext fun a => Fin.ext ?_)
  match a with
  | ⟨0, _⟩ => show win1_0.index t (0 : Fin 3) * 4 + 1 * b.val = 4 * t.val + b.val; omega
  | ⟨1, _⟩ => show win1_0.index t (1 : Fin 3) * 48 + 1 * l.val = l.val; omega
  | ⟨2, _⟩ => show win1_0.index t (2 : Fin 3) * 128 + 1 * h.val = h.val; omega

/-- A weight matrix's or bias vector's block at any point is the whole array. -/
theorem wtop_block (c : Dev nD) (t : Fin cfg1.N) : (iblk1 V c 1 t : Vec Ideal S128x128 .f32) = V c main_v2 := by
  obtain ⟨-, ⟨e0, e1⟩, -⟩ := index_facts1 t
  unfold iblk1
  refine funext fun (y : S128x128.Idx) => ?_
  show V c main_v2 (((cfg1.win 1).blk t).view.emb y) = V c main_v2 y
  refine congrArg (V c main_v2) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

theorem wbot_block (c : Dev nD) (t : Fin cfg1.N) : (iblk1 V c 2 t : Vec Ideal S128x128 .f32) = V c main_v3 := by
  obtain ⟨-, -, ⟨e0, e1⟩, -⟩ := index_facts1 t
  unfold iblk1
  refine funext fun (y : S128x128.Idx) => ?_
  show V c main_v3 (((cfg1.win 2).blk t).view.emb y) = V c main_v3 y
  refine congrArg (V c main_v3) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem b1b_block (c : Dev nD) (t : Fin cfg1.N) : (iblk1 V c 3 t : Vec Ideal S128 .f32) = V c main_arg11 := by
  obtain ⟨-, -, -, e0, -⟩ := index_facts1 t
  unfold iblk1
  refine funext fun (y : S128.Idx) => ?_
  show V c main_arg11 (((cfg1.win 3).blk t).view.emb y) = V c main_arg11 y
  refine congrArg (V c main_arg11) (funext fun a => Fin.ext ?_)
  match a with
  | ⟨0, _⟩ => show win1_3.index t (0 : Fin 1) * 128 + 1 * (y 0).val = (y 0).val; omega

theorem w2b_block (c : Dev nD) (t : Fin cfg1.N) : (iblk1 V c 4 t : Vec Ideal S128x5 .f32) = V c main_arg12 := by
  obtain ⟨-, -, -, -, ⟨e0, e1⟩, -⟩ := index_facts1 t
  unfold iblk1
  refine funext fun (y : S128x5.Idx) => ?_
  show V c main_arg12 (((cfg1.win 4).blk t).view.emb y) = V c main_arg12 y
  refine congrArg (V c main_arg12) (funext fun a => Fin.ext ?_)
  match a with
  | ⟨0, _⟩ => show win1_4.index t (0 : Fin 2) * 128 + 1 * (y 0).val = (y 0).val; omega
  | ⟨1, _⟩ => show win1_4.index t (1 : Fin 2) * 5 + 1 * (y 1).val = (y 1).val; omega

theorem b2b_block (c : Dev nD) (t : Fin cfg1.N) : (iblk1 V c 5 t : Vec Ideal S5 .f32) = V c main_arg13 := by
  obtain ⟨-, -, -, -, -, e0, -⟩ := index_facts1 t
  unfold iblk1
  refine funext fun (y : S5.Idx) => ?_
  show V c main_arg13 (((cfg1.win 5).blk t).view.emb y) = V c main_arg13 y
  refine congrArg (V c main_arg13) (funext fun a => Fin.ext ?_)
  match a with
  | ⟨0, _⟩ => show win1_5.index t (0 : Fin 1) * 5 + 1 * (y 0).val = (y 0).val; omega

/-- The bond head of the region's own arrays at the pair (l, m) of molecule b, output j: the grouped embeddings,
    the two halves of the pair weights as two matrices. -/
def pairAt (xm : S256x48x128.Idx → EReal) (Wt Wb : S128x128.Idx → EReal) (b1 : S128.Idx → EReal) (W2 : S128x5.Idx → EReal)
    (b2 : S5.Idx → EReal) (b : Fin 256) (l m : Fin 48) (j : Fin 5) : EReal :=
  (∑ p : Fin 128, max (((∑ h : Fin 128, xm (ix3 b l h) * Wt (ix2 h p)) + (∑ h : Fin 128, xm (ix3 b m h) * Wb (ix2 h p)))
      + b1 (ix1 p)) 0 * W2 (ix2 p j)) + b2 (ix1 j)

/-- The pair logits as a function of the arrays the region finds. -/
def pairOf (c : Dev nD) : S256x48x48x5.Idx → EReal := fun i =>
  pairAt (V c main_v1) (V c main_v2) (V c main_v3) (V c main_arg11) (V c main_arg12) (V c main_arg13)
    ⟨(i 0).val, (i 0).isLt⟩ ⟨(i 1).val, (i 1).isLt⟩ ⟨(i 2).val, (i 2).isLt⟩ ⟨(i 3).val, (i 3).isLt⟩

/-- What point t writes back of the pair logits is block t of that function. -/
theorem flushed_pair (c : Dev nD) (t : Fin cfg1.N) :
    (dat1 V c).flushed 6 t = ((cfg1.win 6).blk t).view.read (Elt Ideal) (pairOf V c) := by
  show (cfg1.win 6).cut (grid1.coords t) ((dat1 V c).after 6 t) = _
  rw [after1_6]
  unfold out1_6
  rw [View.canon_unit_zero hz4]
  simp only [View.ld_unit_zero (S := S4x48x128) hz3, View.ld_unit_zero (S := S128x128) hz2, View.ld_unit_zero (S := S128) hz1,
    View.ld_unit_zero (S := S128x5) hz2, View.ld_unit_zero (S := S5) hz1]
  rw [wtop_block, wbot_block, b1b_block, w2b_block, b2b_block]
  obtain ⟨-, -, -, -, -, -, ⟨e0, e1, e2, e3⟩⟩ := index_facts1 t
  refine funext fun (y : S4x48x48x5.Idx) => ?_
  obtain ⟨b, l, mm, j, rfl⟩ : ∃ (b : Fin 4) (l mm : Fin 48) (j : Fin 5), y = ix4 b l mm j := ⟨y 0, y 1, y 2, y 3, eq_ix4 y⟩
  show k1_pay1 (iblk1 V c 0 t) (V c main_v2) (V c main_v3) (V c main_arg11) (V c main_arg12) (V c main_arg13) (ix4 b l mm j)
    = pairOf V c (((cfg1.win 6).blk t).view.emb (ix4 b l mm j))
  have hemb : ((cfg1.win 6).blk t).view.emb (ix4 b l mm j) = (ix4 (molOf t b) l mm j : S256x48x48x5.Idx) := funext fun a => Fin.ext (by
    match a with
    | ⟨0, _⟩ => show win1_6.index t (0 : Fin 4) * 4 + 1 * b.val = 4 * t.val + b.val; omega
    | ⟨1, _⟩ => show win1_6.index t (1 : Fin 4) * 48 + 1 * l.val = l.val; omega
    | ⟨2, _⟩ => show win1_6.index t (2 : Fin 4) * 48 + 1 * mm.val = mm.val; omega
    | ⟨3, _⟩ => show win1_6.index t (3 : Fin 4) * 5 + 1 * j.val = j.val; omega)
  rw [hemb]
  refine (bond_payload _ _ _ _ _ _ b l mm j).trans ?_
  show _ = pairAt _ _ _ _ _ _ (molOf t b) l mm j
  unfold pairAt
  refine congrArg (· + _) (Finset.sum_congr rfl fun p _ => congrArg (· * _) (congrArg (max · 0) (congrArg (· + _)
    (congrArg₂ (· + ·) (Finset.sum_congr rfl fun h _ => congrArg (· * _) (xm_block V c t b l h))
      (Finset.sum_congr rfl fun h _ => congrArg (· * _) (xm_block V c t b mm h))))))

/-- Every molecule of the pair logits lies in the block of the point four molecules wide that holds it. -/
theorem cover_pair (i : S256x48x48x5.Idx) : ∃ t : Fin cfg1.N, (cfg1.win 6).flush t = true ∧ i ∈ ((cfg1.win 6).blk t).view.set := by
  have hi0 : (i 0).val < 256 := (i 0).isLt
  have hi1 : (i 1).val < 48 := (i 1).isLt
  have hi2 : (i 2).val < 48 := (i 2).isLt
  have hi3 : (i 3).val < 5 := (i 3).isLt
  obtain ⟨t, ht⟩ : ∃ t : Fin cfg1.N, t.val = (i 0).val / 4 := ⟨⟨(i 0).val / 4, by rw [show cfg1.N = 64 from N_1]; omega⟩, rfl⟩
  obtain ⟨-, -, -, -, -, -, ⟨e0, e1, e2, e3⟩⟩ := index_facts1 t
  refine ⟨t, flush1_6 t, ?_⟩
  show i ∈ ((View.whole main_v4).slice (win1_6.rect t)).set
  rw [View.set_slice_whole, Rect.mem_set_unit]
  intro a
  match a with
  | ⟨0, _⟩ => show win1_6.index t (0 : Fin 4) * 4 ≤ (i 0).val ∧ (i 0).val < win1_6.index t (0 : Fin 4) * 4 + 4; omega
  | ⟨1, _⟩ => show win1_6.index t (1 : Fin 4) * 48 ≤ (i 1).val ∧ (i 1).val < win1_6.index t (1 : Fin 4) * 48 + 48; omega
  | ⟨2, _⟩ => show win1_6.index t (2 : Fin 4) * 48 ≤ (i 2).val ∧ (i 2).val < win1_6.index t (2 : Fin 4) * 48 + 48; omega
  | ⟨3, _⟩ => show win1_6.index t (3 : Fin 4) * 5 ≤ (i 3).val ∧ (i 3).val < win1_6.index t (3 : Fin 4) * 5 + 5; omega

/-- After the second region the pair array is the bond head of the arrays the region found. -/
theorem final_pair (c : Dev nD) : (dat1 V c).arrAt 6 cfg1.N = pairOf V c :=
  (dat1 V c).arrAt_eq_of_cover 6 (pairOf V c) (fun t _ => flushed_pair V c t) (fun i => cover_pair i)

end Cert.KernelIdeal.PairArrays

end
-- ==== Proof.KernelHeads.lean ====
/-
  The three result arrays of the idealized kernel program, as the heads of the argument arrays.

  The symbol and charge arrays are written by the first region only; no later segment touches them, so at the end
  they hold what the first region left: the per-atom heads of the embeddings and the first two pairs of layers.
  The second region finds the embeddings grouped by molecule (row 48 b + l of the matrix is atom l of molecule b) and
  the pair weights cut into their top and bottom halves, all made from the untouched arguments by the three host
  operations between the regions; its result, regrouped into rows (48 b + l) · 48 + m by the closing reshape, is the
  bond head.
-/
import proofs.«144118_j27900107555247_2_alg».proof.Proof.FinalMemory
import proofs.«144118_j27900107555247_2_alg».proof.Proof.MlpArrays
import proofs.«144118_j27900107555247_2_alg».proof.Proof.BondArrays
import proofs.«144118_j27900107555247_2_alg».proof.Proof.Spec
import Idealize.ShloMosaic.Lib.StableHlo.Run

set_option maxRecDepth 16384

noncomputable section

namespace Cert.KernelIdeal.Results

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## The arrays the second region finds -/

/-- The first region leaves the embeddings as launched. -/
theorem W1_x (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The embeddings grouped by molecule. -/
theorem V2_xm (c : Dev nD) : (V2 m ρ c main_v1 : S256x48x128.Idx → EReal)
    = shapeCast S256x48x128 (m ((c : Thread nD τ).loc main_arg0) : S12288x128.Idx → EReal) shapeCasts_S12288x128_S256x48x128 := by
  show StableHlo.after hostOps1 (W1 m ρ c) (Proc.devRef .tc main_v1) = _
  after_results
  rw [W1_x]
  rfl

/-- The top half of the pair weights. -/
theorem V2_top (c : Dev nD) : (V2 m ρ c main_v2 : S128x128.Idx → EReal)
    = extractStridedSlice S128x128 ![0, 0] (m ((c : Thread nD τ).loc main_arg10) : S256x128.Idx → EReal) slices_S256x128_S128x128_0_0 := by
  show StableHlo.after hostOps1 (W1 m ρ c) (Proc.devRef .tc main_v2) = _
  after_results
  rw [W1_of_ne m ρ c main_arg10 (by decide)]

/-- The bottom half of the pair weights. -/
theorem V2_bot (c : Dev nD) : (V2 m ρ c main_v3 : S128x128.Idx → EReal)
    = extractStridedSlice S128x128 ![128, 0] (m ((c : Thread nD τ).loc main_arg10) : S256x128.Idx → EReal) slices_S256x128_S128x128_128_0 := by
  show StableHlo.after hostOps1 (W1 m ρ c) (Proc.devRef .tc main_v3) = _
  after_results
  rw [W1_of_ne m ρ c main_arg10 (by decide)]

theorem V2_b1 (c : Dev nD) : V2 m ρ c main_arg11 = m ((c : Thread nD τ).loc main_arg11) := by
  show StableHlo.after hostOps1 (W1 m ρ c) (Proc.devRef .tc main_arg11) = _
  after_results
  rw [W1_of_ne m ρ c main_arg11 (by decide)]

theorem V2_w2 (c : Dev nD) : V2 m ρ c main_arg12 = m ((c : Thread nD τ).loc main_arg12) := by
  show StableHlo.after hostOps1 (W1 m ρ c) (Proc.devRef .tc main_arg12) = _
  after_results
  rw [W1_of_ne m ρ c main_arg12 (by decide)]

theorem V2_b2 (c : Dev nD) : V2 m ρ c main_arg13 = m ((c : Thread nD τ).loc main_arg13) := by
  show StableHlo.after hostOps1 (W1 m ρ c) (Proc.devRef .tc main_arg13) = _
  after_results
  rw [W1_of_ne m ρ c main_arg13 (by decide)]

/-! ## The results -/

/-- The symbol logits at the end of the run. -/
theorem W4_sym (c : Dev nD) : (W4 m ρ c (Proc.devRef .tc main_v0_0) : S12288x12.Idx → EReal)
    = Heads.sym (m ((c : Thread nD τ).loc main_arg0)) (m ((c : Thread nD τ).loc main_arg2)) (m ((c : Thread nD τ).loc main_arg3))
        (m ((c : Thread nD τ).loc main_arg4)) (m ((c : Thread nD τ).loc main_arg5)) := by
  have e : W4 m ρ c (Proc.devRef .tc main_v0_0) = W3 m ρ c (Proc.devRef .tc main_v0_0) := by
    show StableHlo.after hostOps2 (W3 m ρ c) (Proc.devRef .tc main_v0_0) = _
    after_results
  have e' : W2 m ρ c (Proc.devRef .tc main_v0_0) = W1 m ρ c (Proc.devRef .tc main_v0_0) := by
    show StableHlo.after hostOps1 (W1 m ρ c) (Proc.devRef .tc main_v0_0) = _
    after_results
  exact e.trans ((W3_of_ne m ρ c main_v0_0 (by decide)).trans (e'.trans ((W1_arr m ρ c 9).trans (Arrays.final_sym (V0 m ρ) c))))

/-- The charge logits at the end of the run. -/
theorem W4_chg (c : Dev nD) : (W4 m ρ c (Proc.devRef .tc main_v0_1) : S12288x5.Idx → EReal)
    = Heads.chg (m ((c : Thread nD τ).loc main_arg0)) (m ((c : Thread nD τ).loc main_arg6)) (m ((c : Thread nD τ).loc main_arg7))
        (m ((c : Thread nD τ).loc main_arg8)) (m ((c : Thread nD τ).loc main_arg9)) := by
  have e : W4 m ρ c (Proc.devRef .tc main_v0_1) = W3 m ρ c (Proc.devRef .tc main_v0_1) := by
    show StableHlo.after hostOps2 (W3 m ρ c) (Proc.devRef .tc main_v0_1) = _
    after_results
  have e' : W2 m ρ c (Proc.devRef .tc main_v0_1) = W1 m ρ c (Proc.devRef .tc main_v0_1) := by
    show StableHlo.after hostOps1 (W1 m ρ c) (Proc.devRef .tc main_v0_1) = _
    after_results
  exact e.trans ((W3_of_ne m ρ c main_v0_1 (by decide)).trans (e'.trans ((W1_arr m ρ c 10).trans (Arrays.final_chg (V0 m ρ) c))))

/-- Atom l of molecule b in the grouped embeddings is row 48 b + l of the matrix. -/
theorem xm_at (x : S12288x128.Idx → EReal) (b : Fin 256) (l : Fin 48) (h : Fin 128) :
    shapeCast S256x48x128 x shapeCasts_S12288x128_S256x48x128 (ix3 b l h) = x (ix2 (Heads.atom b l) h) :=
  shapeCast_apply x _ _ _ (by
    rw [Shape.rowMajor_val_two, Shape.rowMajor_val_three]
    show (48 * b.val + l.val) * 128 + h.val = (b.val * 48 + l.val) * 128 + h.val
    omega)

/-- Row h of the top half of the pair weights. -/
theorem top_at (W : S256x128.Idx → EReal) (h p : Fin 128) :
    extractStridedSlice S128x128 ![0, 0] W slices_S256x128_S128x128_0_0 (ix2 h p) = W (ix2 (Heads.top h) p) :=
  extractStridedSlice_apply _ W _ _ _ fun a => by
    match a with
    | ⟨0, _⟩ => show h.val = 0 + h.val; omega
    | ⟨1, _⟩ => show p.val = 0 + p.val; omega

/-- Row h of the bottom half of the pair weights. -/
theorem bot_at (W : S256x128.Idx → EReal) (h p : Fin 128) :
    extractStridedSlice S128x128 ![128, 0] W slices_S256x128_S128x128_128_0 (ix2 h p) = W (ix2 (Heads.bot h) p) :=
  extractStridedSlice_apply _ W _ _ _ fun a => by
    match a with
    | ⟨0, _⟩ => show 128 + h.val = 128 + h.val; rfl
    | ⟨1, _⟩ => show p.val = 0 + p.val; omega

/-- What the second region leaves at the pair (l, m) of molecule b is the bond head of the arguments there. -/
theorem pair_value (c : Dev nD) (b : Fin 256) (l mm : Fin 48) (j : Fin 5) :
    PairArrays.pairOf (V2 m ρ) c (ix4 b l mm j)
      = Heads.bondAt (m ((c : Thread nD τ).loc main_arg0)) (m ((c : Thread nD τ).loc main_arg10)) (m ((c : Thread nD τ).loc main_arg11))
          (m ((c : Thread nD τ).loc main_arg12)) (m ((c : Thread nD τ).loc main_arg13)) b l mm j := by
  show PairArrays.pairAt (V2 m ρ c main_v1) (V2 m ρ c main_v2) (V2 m ρ c main_v3) (V2 m ρ c main_arg11) (V2 m ρ c main_arg12)
    (V2 m ρ c main_arg13) b l mm j = _
  rw [V2_xm, V2_top, V2_bot, V2_b1, V2_w2, V2_b2]
  unfold PairArrays.pairAt Heads.bondAt Heads.pairHidden
  refine congrArg (· + _) (Finset.sum_congr rfl fun p _ => congrArg (· * _) (congrArg (max · 0) (congrArg (· + _)
    (congrArg₂ (· + ·)
      (Finset.sum_congr rfl fun h _ => congrArg₂ (· * ·) (xm_at _ b l h) (top_at _ h p))
      (Finset.sum_congr rfl fun h _ => congrArg₂ (· * ·) (xm_at _ b mm h) (bot_at _ h p))))))

/-- The bond logits at the end of the run. -/
theorem W4_bonds (c : Dev nD) : (W4 m ρ c (Proc.devRef .tc main_v5) : S589824x5.Idx → EReal)
    = Heads.bonds (m ((c : Thread nD τ).loc main_arg0)) (m ((c : Thread nD τ).loc main_arg10)) (m ((c : Thread nD τ).loc main_arg11))
        (m ((c : Thread nD τ).loc main_arg12)) (m ((c : Thread nD τ).loc main_arg13)) := by
  have e5 : (W4 m ρ c (Proc.devRef .tc main_v5) : S589824x5.Idx → EReal)
      = shapeCast S589824x5 (PairArrays.pairOf (V2 m ρ) c) shapeCasts_S256x48x48x5_S589824x5 := by
    show StableHlo.after hostOps2 (W3 m ρ c) (Proc.devRef .tc main_v5) = _
    after_results
    exact congrArg (fun z => shapeCast S589824x5 z shapeCasts_S256x48x48x5_S589824x5)
      ((W3_arr m ρ c 6).trans (PairArrays.final_pair (V2 m ρ) c))
  rw [e5]
  refine funext fun (i : S589824x5.Idx) => ?_
  obtain ⟨q, j, rfl⟩ : ∃ (q : Fin 589824) (j : Fin 5), i = ix2 q j := ⟨i 0, i 1, eq_ix2 i⟩
  have hq := q.isLt
  have hj := j.isLt
  refine (shapeCast_apply _ _ (ix2 q j) (ix4 (⟨q.val / 2304, by omega⟩ : Fin 256) (⟨q.val / 48 % 48, Nat.mod_lt _ (by decide)⟩ : Fin 48)
    (⟨q.val % 48, Nat.mod_lt _ (by decide)⟩ : Fin 48) j) (by
      rw [Shape.rowMajor_val_four, Shape.rowMajor_val_two]
      show ((q.val / 2304 * 48 + q.val / 48 % 48) * 48 + q.val % 48) * 5 + j.val = q.val * 5 + j.val
      omega)).trans ?_
  exact pair_value m ρ c _ _ _ j

end Cert.KernelIdeal.Results

end
-- ==== Proof.RefHeads.lean ====
/-
  The reference computes the three heads.

  Read one operation at a time, the reference's symbol and charge logits are, at atom r and output j,
  Σ_k max (Σ_h x[r, h] · W1[h, k] + b1[k], 0) · W2[k, j] + b2[j]: the two matrix products as plain sums, the biases
  broadcast along the rows, the rectifier a maximum with zero.
  Its bond logits group the embeddings by molecule, repeat the row atom along the third axis and the column atom
  along the second, join the two along the features into 256, and contract with all of the pair weights; feature h of
  the joined pair is feature h of the row atom for h < 128 and feature h − 128 of the column atom otherwise, so the
  one sum over 256 splits into the two half sums of the head.  The closing reshape sends row (48 b + l) · 48 + m
  to the pair (l, m) of molecule b.
-/
import proofs.«144118_j27900107555247_2_alg».proof.Proof.Gen.ReferenceIdeal.Read
import proofs.«144118_j27900107555247_2_alg».proof.Proof.Spec

noncomputable section

namespace Cert.ReferenceIdeal.RefHeads

open Cert.ReferenceIdeal Cert.ReferenceIdeal.Gen Cert.ReferenceIdeal.Read Idealize.ShloMosaic Idealize.ShloMosaic.ValueIdx Cert.Heads

/-! ## The per-atom heads -/

/-- The symbol head's rectified first layer. -/
theorem hidden_sym (x0 : S12288x128.Idx → EReal) (x2 : S128x128.Idx → EReal) (x3 : S128.Idx → EReal) (r : Fin 12288) (k : Fin 128) :
    val_main_v4 (F := Ideal) x0 x2 x3 (ix2 r k) = hidden x0 x2 x3 r k := by
  rw [val_main_v4_apply, val_main_v3_apply, val_main_v0_apply, val_main_v2_apply, val_main_v1_apply, val_main_call0_v0_apply,
    val_main_call0_cst_apply]
  have e1 : ∀ h : Fin 128, lidx_main_v0 (ix2 r k) h = ix2 r h := fun h => funext fun a => Fin.ext (by
    match a with | ⟨0, _⟩ => rfl | ⟨1, _⟩ => rfl)
  have e2 : ∀ h : Fin 128, ridx_main_v0 (ix2 r k) h = ix2 h k := fun h => funext fun a => Fin.ext (by
    match a with | ⟨0, _⟩ => rfl | ⟨1, _⟩ => rfl)
  have e3 : idx_main_v1 (idx_main_v2 (ix2 r k)) = ix1 k := funext fun a => Fin.ext (by match a with | ⟨0, _⟩ => rfl)
  simp only [e1, e2, e3, Ideal.addf_def, Ideal.maximumf_def, Ideal.ofBits_def, Ideal.ofBits_zero_f32]
  rfl

/-- The charge head's rectified first layer. -/
theorem hidden_chg (x0 : S12288x128.Idx → EReal) (x6 : S128x128.Idx → EReal) (x7 : S128.Idx → EReal) (r : Fin 12288) (k : Fin 128) :
    val_main_v13 (F := Ideal) x0 x6 x7 (ix2 r k) = hidden x0 x6 x7 r k := by
  rw [val_main_v13_apply, val_main_v12_apply, val_main_v9_apply, val_main_v11_apply, val_main_v10_apply, val_main_call1_v0_apply,
    val_main_call1_cst_apply]
  have e1 : ∀ h : Fin 128, lidx_main_v9 (ix2 r k) h = ix2 r h := fun h => funext fun a => Fin.ext (by
    match a with | ⟨0, _⟩ => rfl | ⟨1, _⟩ => rfl)
  have e2 : ∀ h : Fin 128, ridx_main_v9 (ix2 r k) h = ix2 h k := fun h => funext fun a => Fin.ext (by
    match a with | ⟨0, _⟩ => rfl | ⟨1, _⟩ => rfl)
  have e3 : idx_main_v10 (idx_main_v11 (ix2 r k)) = ix1 k := funext fun a => Fin.ext (by match a with | ⟨0, _⟩ => rfl)
  simp only [e1, e2, e3, Ideal.addf_def, Ideal.maximumf_def, Ideal.ofBits_def, Ideal.ofBits_zero_f32]
  rfl

/-- The reference's symbol logits are the symbol head. -/
theorem sym_eq (x0 : S12288x128.Idx → EReal) (x2 : S128x128.Idx → EReal) (x3 : S128.Idx → EReal) (x4 : S128x12.Idx → EReal)
    (x5 : S12.Idx → EReal) : val_main_v8 (F := Ideal) x0 x2 x3 x4 x5 = sym x0 x2 x3 x4 x5 := by
  refine funext fun (i : S12288x12.Idx) => ?_
  obtain ⟨r, j, rfl⟩ : ∃ (r : Fin 12288) (j : Fin 12), i = ix2 r j := ⟨i 0, i 1, eq_ix2 i⟩
  rw [sym_ix2, val_main_v8_apply, val_main_v5_apply, val_main_v7_apply, val_main_v6_apply]
  have e1 : ∀ k : Fin 128, lidx_main_v5 (ix2 r j) k = ix2 r k := fun k => funext fun a => Fin.ext (by
    match a with | ⟨0, _⟩ => rfl | ⟨1, _⟩ => rfl)
  have e2 : ∀ k : Fin 128, ridx_main_v5 (ix2 r j) k = ix2 k j := fun k => funext fun a => Fin.ext (by
    match a with | ⟨0, _⟩ => rfl | ⟨1, _⟩ => rfl)
  have e3 : idx_main_v6 (idx_main_v7 (ix2 r j)) = ix1 j := funext fun a => Fin.ext (by match a with | ⟨0, _⟩ => rfl)
  simp only [e1, e2, e3, hidden_sym, Ideal.addf_def]
  rfl

/-- The reference's charge logits are the charge head. -/
theorem chg_eq (x0 : S12288x128.Idx → EReal) (x6 : S128x128.Idx → EReal) (x7 : S128.Idx → EReal) (x8 : S128x5.Idx → EReal)
    (x9 : S5.Idx → EReal) : val_main_v17 (F := Ideal) x0 x6 x7 x8 x9 = chg x0 x6 x7 x8 x9 := by
  refine funext fun (i : S12288x5.Idx) => ?_
  obtain ⟨r, j, rfl⟩ : ∃ (r : Fin 12288) (j : Fin 5), i = ix2 r j := ⟨i 0, i 1, eq_ix2 i⟩
  rw [chg_ix2, val_main_v17_apply, val_main_v14_apply, val_main_v16_apply, val_main_v15_apply]
  have e1 : ∀ k : Fin 128, lidx_main_v14 (ix2 r j) k = ix2 r k := fun k => funext fun a => Fin.ext (by
    match a with | ⟨0, _⟩ => rfl | ⟨1, _⟩ => rfl)
  have e2 : ∀ k : Fin 128, ridx_main_v14 (ix2 r j) k = ix2 k j := fun k => funext fun a => Fin.ext (by
    match a with | ⟨0, _⟩ => rfl | ⟨1, _⟩ => rfl)
  have e3 : idx_main_v15 (idx_main_v16 (ix2 r j)) = ix1 j := funext fun a => Fin.ext (by match a with | ⟨0, _⟩ => rfl)
  simp only [e1, e2, e3, hidden_chg, Ideal.addf_def]
  rfl

/-! ## The bond head -/

/-- The embeddings grouped by molecule: atom l of molecule b is row 48 b + l. -/
theorem grouped (x0 : S12288x128.Idx → EReal) (b : Fin 256) (l : Fin 48) (h : Fin 128) :
    val_main_v18 (F := Ideal) x0 (ix3 b l h) = x0 (ix2 (atom b l) h) := by
  rw [val_main_v18_apply]
  have hb := b.isLt; have hl := l.isLt; have hh := h.isLt
  refine congrArg x0 (funext fun a => Fin.ext ?_)
  match a with
  | ⟨0, _⟩ => show ((b.val * 48 + l.val) * 128 + h.val) / 128 = 48 * b.val + l.val; omega
  | ⟨1, _⟩ => show ((b.val * 48 + l.val) * 128 + h.val) % 128 = h.val; omega

/-- The row atom repeated over the column atoms. -/
theorem row_atoms (x0 : S12288x128.Idx → EReal) (b : Fin 256) (l m : Fin 48) (h : Fin 128) :
    val_main_v20 (F := Ideal) x0 (ix4 b l m h) = x0 (ix2 (atom b l) h) := by
  rw [val_main_v20_apply, val_main_v19_apply]
  have e : idx_main_v19 (idx_main_v20 (ix4 b l m h)) = ix3 b l h := funext fun a => Fin.ext (by
    match a with | ⟨0, _⟩ => rfl | ⟨1, _⟩ => rfl | ⟨2, _⟩ => rfl)
  rw [e, grouped]

/-- The column atom repeated over the row atoms. -/
theorem col_atoms (x0 : S12288x128.Idx → EReal) (b : Fin 256) (l m : Fin 48) (h : Fin 128) :
    val_main_v22 (F := Ideal) x0 (ix4 b l m h) = x0 (ix2 (atom b m) h) := by
  rw [val_main_v22_apply, val_main_v21_apply]
  have e : idx_main_v21 (idx_main_v22 (ix4 b l m h)) = ix3 b m h := funext fun a => Fin.ext (by
    match a with | ⟨0, _⟩ => rfl | ⟨1, _⟩ => rfl | ⟨2, _⟩ => rfl)
  rw [e, grouped]

/-- The first 128 features of the joined pair are the row atom's. -/
theorem joined_top (x0 : S12288x128.Idx → EReal) (b : Fin 256) (l m : Fin 48) (h : Fin 128) :
    val_main_v23 (F := Ideal) x0 (ix4 b l m (top h)) = x0 (ix2 (atom b l) h) := by
  unfold val_main_v23
  refine (concatenate_pair_apply_left (3 : Fin S256x48x48x256.rank) (val_main_v20 (F := Ideal) x0) (val_main_v22 (F := Ideal) x0) _
      (ix4 b l m (top h)) rfl (ix4 b l m h : S256x48x48x128.Idx) fun a => ?_).trans
    (row_atoms x0 b l m h)
  match a with
  | ⟨0, _⟩ => rfl
  | ⟨1, _⟩ => rfl
  | ⟨2, _⟩ => rfl
  | ⟨3, _⟩ => rfl

/-- The last 128 features of the joined pair are the column atom's. -/
theorem joined_bot (x0 : S12288x128.Idx → EReal) (b : Fin 256) (l m : Fin 48) (h : Fin 128) :
    val_main_v23 (F := Ideal) x0 (ix4 b l m (bot h)) = x0 (ix2 (atom b m) h) := by
  unfold val_main_v23
  refine (concatenate_pair_apply_right (3 : Fin S256x48x48x256.rank) (val_main_v20 (F := Ideal) x0) (val_main_v22 (F := Ideal) x0) _
      (ix4 b l m (bot h)) rfl rfl (ix4 b l m h : S256x48x48x128.Idx) (fun a hne => ?_) ?_).trans
    (col_atoms x0 b l m h)
  · match a with
    | ⟨0, _⟩ => rfl
    | ⟨1, _⟩ => rfl
    | ⟨2, _⟩ => rfl
    | ⟨3, _⟩ => exact absurd rfl hne
  · show h.val + 128 = 128 + h.val
    omega

/-- The bond head's first layer before the bias: the contraction over 256 joined features is the two half sums. -/
theorem first_layer (x0 : S12288x128.Idx → EReal) (x10 : S256x128.Idx → EReal) (b : Fin 256) (l m : Fin 48) (p : Fin 128) :
    val_main_v24 (F := Ideal) x0 x10 (ix4 b l m p)
      = (∑ h : Fin 128, x0 (ix2 (atom b l) h) * x10 (ix2 (top h) p)) + (∑ h : Fin 128, x0 (ix2 (atom b m) h) * x10 (ix2 (bot h) p)) := by
  rw [val_main_v24_apply, sum_halves]
  have el : ∀ k : Fin 256, lidx_main_v24 (ix4 b l m p) k = ix4 b l m k := fun k => funext fun a => Fin.ext (by
    match a with | ⟨0, _⟩ => rfl | ⟨1, _⟩ => rfl | ⟨2, _⟩ => rfl | ⟨3, _⟩ => rfl)
  have er : ∀ k : Fin 256, ridx_main_v24 (ix4 b l m p) k = ix2 k p := fun k => funext fun a => Fin.ext (by
    match a with | ⟨0, _⟩ => rfl | ⟨1, _⟩ => rfl)
  simp only [el, er, joined_top, joined_bot]

/-- The bond head's rectified first layer. -/
theorem pair_hidden (x0 : S12288x128.Idx → EReal) (x10 : S256x128.Idx → EReal) (x11 : S128.Idx → EReal)
    (b : Fin 256) (l m : Fin 48) (p : Fin 128) :
    val_main_v28 (F := Ideal) x0 x10 x11 (ix4 b l m p) = pairHidden x0 x10 x11 b l m p := by
  rw [val_main_v28_apply, val_main_v27_apply, val_main_v26_apply, val_main_v25_apply, val_main_call2_v0_apply,
    val_main_call2_cst_apply, first_layer]
  have e : idx_main_v25 (idx_main_v26 (ix4 b l m p)) = ix1 p := funext fun a => Fin.ext (by match a with | ⟨0, _⟩ => rfl)
  simp only [e, Ideal.addf_def, Ideal.maximumf_def, Ideal.ofBits_def, Ideal.ofBits_zero_f32]
  rfl

/-- The bond head at a pair, before the closing reshape. -/
theorem bond_at (x0 : S12288x128.Idx → EReal) (x10 : S256x128.Idx → EReal) (x11 : S128.Idx → EReal) (x12 : S128x5.Idx → EReal)
    (x13 : S5.Idx → EReal) (b : Fin 256) (l m : Fin 48) (j : Fin 5) :
    val_main_v32 (F := Ideal) x0 x10 x11 x12 x13 (ix4 b l m j) = bondAt x0 x10 x11 x12 x13 b l m j := by
  rw [val_main_v32_apply, val_main_v29_apply, val_main_v31_apply, val_main_v30_apply]
  have e1 : ∀ p : Fin 128, lidx_main_v29 (ix4 b l m j) p = ix4 b l m p := fun p => funext fun a => Fin.ext (by
    match a with | ⟨0, _⟩ => rfl | ⟨1, _⟩ => rfl | ⟨2, _⟩ => rfl | ⟨3, _⟩ => rfl)
  have e2 : ∀ p : Fin 128, ridx_main_v29 (ix4 b l m j) p = ix2 p j := fun p => funext fun a => Fin.ext (by
    match a with | ⟨0, _⟩ => rfl | ⟨1, _⟩ => rfl)
  have e3 : idx_main_v30 (idx_main_v31 (ix4 b l m j)) = ix1 j := funext fun a => Fin.ext (by match a with | ⟨0, _⟩ => rfl)
  simp only [e1, e2, e3, pair_hidden, Ideal.addf_def]
  rfl

/-- The reference's bond logits are the bond head. -/
theorem bonds_eq (x0 : S12288x128.Idx → EReal) (x10 : S256x128.Idx → EReal) (x11 : S128.Idx → EReal) (x12 : S128x5.Idx → EReal)
    (x13 : S5.Idx → EReal) : val_main_v33 (F := Ideal) x0 x10 x11 x12 x13 = bonds x0 x10 x11 x12 x13 := by
  refine funext fun (i : S589824x5.Idx) => ?_
  obtain ⟨q, j, rfl⟩ : ∃ (q : Fin 589824) (j : Fin 5), i = ix2 q j := ⟨i 0, i 1, eq_ix2 i⟩
  have hq := q.isLt; have hj := j.isLt
  rw [val_main_v33_apply]
  have e : idx_main_v33 (ix2 q j) = ix4 (⟨q.val / 2304, by omega⟩ : Fin 256) (⟨q.val / 48 % 48, Nat.mod_lt _ (by decide)⟩ : Fin 48)
      (⟨q.val % 48, Nat.mod_lt _ (by decide)⟩ : Fin 48) j := funext fun a => Fin.ext (by
    match a with
    | ⟨0, _⟩ => show (q.val * 5 + j.val) / 11520 = q.val / 2304; omega
    | ⟨1, _⟩ => show (q.val * 5 + j.val) / 240 % 48 = q.val / 48 % 48; omega
    | ⟨2, _⟩ => show (q.val * 5 + j.val) / 5 % 48 = q.val % 48; omega
    | ⟨3, _⟩ => show (q.val * 5 + j.val) % 5 = j.val; omega)
  rw [e, bond_at]
  rfl

end Cert.ReferenceIdeal.RefHeads

end
-- ==== Proof.lean ====
/-
  The certificate: the kernel program and its reference compute the same three arrays over the extended reals.

  The program has two kernels.  The first runs a two-layer perceptron with a rectifier on every atom's 128 features,
  once with the symbol weights (12 outputs) and once with the charge weights (5 outputs), 1536 atoms per grid point.
  The second takes four molecules of 48 atoms per grid point and, for every ordered pair of atoms of one molecule,
  runs a two-layer perceptron on the two atoms' features laid end to end (256 features); it never forms the joined
  vector, but multiplies the atoms once by the top 128 rows of the first-layer weights and once by the bottom 128
  rows, and adds the row atom's first product to the column atom's second.
  The reference forms the joined vectors and contracts them with all 256 rows at once.  Over the extended reals a sum
  of 256 terms is the sum of its first 128 plus the sum of its last 128 (addition is commutative and associative
  there, infinities included), and the first 128 joined features are the row atom's, the last 128 the column atom's;
  so the two first layers agree term by term, and everything after them is the same arithmetic in the same order.
  No step needs the inputs to be finite.

  The three frames are the generated ones (the reference's is its generated run with the results dropped); the
  idealization rewrote nothing, so there is nothing to preserve.
-/
import proofs.«144118_j27900107555247_2_alg».proof.Defs
import proofs.«144118_j27900107555247_2_alg».proof.Proof.Gen.Kernel
import proofs.«144118_j27900107555247_2_alg».proof.Proof.Gen.Kernel.Skeleton
import proofs.«144118_j27900107555247_2_alg».proof.Proof.Gen.Kernel.Launch
import proofs.«144118_j27900107555247_2_alg».proof.Proof.Gen.Kernel.Points
import proofs.«144118_j27900107555247_2_alg».proof.Proof.Gen.Kernel.Frame
import proofs.«144118_j27900107555247_2_alg».proof.Proof.Gen.KernelIdeal
import proofs.«144118_j27900107555247_2_alg».proof.Proof.Gen.KernelIdeal.Skeleton
import proofs.«144118_j27900107555247_2_alg».proof.Proof.Gen.KernelIdeal.Launch
import proofs.«144118_j27900107555247_2_alg».proof.Proof.Gen.KernelIdeal.Points
import proofs.«144118_j27900107555247_2_alg».proof.Proof.Gen.KernelIdeal.Frame
import proofs.«144118_j27900107555247_2_alg».proof.Proof.Gen.ReferenceIdeal
import proofs.«144118_j27900107555247_2_alg».proof.Proof.Gen.ReferenceIdeal.Run
import proofs.«144118_j27900107555247_2_alg».proof.Proof.Gen.ReferenceIdeal.Read
import proofs.«144118_j27900107555247_2_alg».proof.Proof.Gen.Pre_finite_inputs
import proofs.«144118_j27900107555247_2_alg».proof.Proof.KernelHeads
import proofs.«144118_j27900107555247_2_alg».proof.Proof.RefHeads
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2) (Cert.ReferenceIdeal.Value.run (F := Ideal) m ρ)

/-- The idealized kernel program ends with its three result arrays at the three heads of its arguments, and the
    arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0_0)
          = Cert.Heads.sym (m ((c.tc : Thread Cert.KernelIdeal.nD Cert.KernelIdeal.τ).loc Cert.KernelIdeal.main_arg0))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_v0_1)
          = Cert.Heads.chg (m ((c.tc : Thread Cert.KernelIdeal.nD Cert.KernelIdeal.τ).loc Cert.KernelIdeal.main_arg0))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_v5)
          = Cert.Heads.bonds (m ((c.tc : Thread Cert.KernelIdeal.nD Cert.KernelIdeal.τ).loc Cert.KernelIdeal.main_arg0))
              (m ((c.tc : Thread Cert.KernelIdeal.nD Cert.KernelIdeal.τ).loc Cert.KernelIdeal.main_arg10))
              (m ((c.tc : Thread Cert.KernelIdeal.nD Cert.KernelIdeal.τ).loc Cert.KernelIdeal.main_arg11))
              (m ((c.tc : Thread Cert.KernelIdeal.nD Cert.KernelIdeal.τ).loc Cert.KernelIdeal.main_arg12))
              (m ((c.tc : Thread Cert.KernelIdeal.nD Cert.KernelIdeal.τ).loc Cert.KernelIdeal.main_arg13))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun r h c =>
    ⟨(h c _ (Cert.KernelIdeal.Gen.mem_uc Cert.KernelIdeal.main_v0_0 (by decide))).trans (Cert.KernelIdeal.Results.W4_sym m ρ c),
      (h c _ (Cert.KernelIdeal.Gen.mem_uc Cert.KernelIdeal.main_v0_1 (by decide))).trans (Cert.KernelIdeal.Results.W4_chg m ρ c),
      (h c _ (Cert.KernelIdeal.Gen.mem_uc Cert.KernelIdeal.main_v5 (by decide))).trans (Cert.KernelIdeal.Results.W4_bonds m ρ c),
      (h c _ (Cert.KernelIdeal.Gen.mem_uc Cert.KernelIdeal.main_arg0 (by decide))).trans (Cert.KernelIdeal.Gen.W4_main_arg0 m ρ c),
      (h c _ (Cert.KernelIdeal.Gen.mem_uc Cert.KernelIdeal.main_arg1 (by decide))).trans (Cert.KernelIdeal.Gen.W4_main_arg1 m ρ c),
      (h c _ (Cert.KernelIdeal.Gen.mem_uc Cert.KernelIdeal.main_arg2 (by decide))).trans (Cert.KernelIdeal.Gen.W4_main_arg2 m ρ c),
      (h c _ (Cert.KernelIdeal.Gen.mem_uc Cert.KernelIdeal.main_arg3 (by decide))).trans (Cert.KernelIdeal.Gen.W4_main_arg3 m ρ c),
      (h c _ (Cert.KernelIdeal.Gen.mem_uc Cert.KernelIdeal.main_arg4 (by decide))).trans (Cert.KernelIdeal.Gen.W4_main_arg4 m ρ c),
      (h c _ (Cert.KernelIdeal.Gen.mem_uc Cert.KernelIdeal.main_arg5 (by decide))).trans (Cert.KernelIdeal.Gen.W4_main_arg5 m ρ c),
      (h c _ (Cert.KernelIdeal.Gen.mem_uc Cert.KernelIdeal.main_arg6 (by decide))).trans (Cert.KernelIdeal.Gen.W4_main_arg6 m ρ c),
      (h c _ (Cert.KernelIdeal.Gen.mem_uc Cert.KernelIdeal.main_arg7 (by decide))).trans (Cert.KernelIdeal.Gen.W4_main_arg7 m ρ c),
      (h c _ (Cert.KernelIdeal.Gen.mem_uc Cert.KernelIdeal.main_arg8 (by decide))).trans (Cert.KernelIdeal.Gen.W4_main_arg8 m ρ c),
      (h c _ (Cert.KernelIdeal.Gen.mem_uc Cert.KernelIdeal.main_arg9 (by decide))).trans (Cert.KernelIdeal.Gen.W4_main_arg9 m ρ c),
      (h c _ (Cert.KernelIdeal.Gen.mem_uc Cert.KernelIdeal.main_arg10 (by decide))).trans (Cert.KernelIdeal.Gen.W4_main_arg10 m ρ c),
      (h c _ (Cert.KernelIdeal.Gen.mem_uc Cert.KernelIdeal.main_arg11 (by decide))).trans (Cert.KernelIdeal.Gen.W4_main_arg11 m ρ c),
      (h c _ (Cert.KernelIdeal.Gen.mem_uc Cert.KernelIdeal.main_arg12 (by decide))).trans (Cert.KernelIdeal.Gen.W4_main_arg12 m ρ c),
      (h c _ (Cert.KernelIdeal.Gen.mem_uc Cert.KernelIdeal.main_arg13 (by decide))).trans (Cert.KernelIdeal.Gen.W4_main_arg13 m ρ c)⟩)
    (Cert.KernelIdeal.Final.run_memory (F := Ideal) m ρ)

/-- The two idealized programs, from memories that agree on the arguments, end with equal results: each is the three
    heads of the arguments. -/
theorem algebraic : Cert.algebraic_KernelIdeal_ReferenceIdeal := by
  intro m ρ m' ρ' _ hagree
  refine ⟨_, _, _, kernel_run m ρ, ?_⟩
  refine (θ_run Cert.ReferenceIdeal.defs _ _).mono (fun r h c => ?_) (Cert.ReferenceIdeal.Value.run (F := Ideal) m' ρ')
  obtain ⟨h8, h17, h33, hargs⟩ := h c
  obtain ⟨a0, a1, a2, a3, a4, a5, a6, a7, a8, a9, a10, a11, a12, a13⟩ := hagree c
  refine ⟨?_, ?_, ?_, hargs⟩
  · rw [h8, Cert.ReferenceIdeal.Read.val_main_v8_eq, Cert.ReferenceIdeal.RefHeads.sym_eq, a0, a2, a3, a4, a5]
  · rw [h17, Cert.ReferenceIdeal.Read.val_main_v17_eq, Cert.ReferenceIdeal.RefHeads.chg_eq, a0, a6, a7, a8, a9]
  · rw [h33, Cert.ReferenceIdeal.Read.val_main_v33_eq, Cert.ReferenceIdeal.RefHeads.bonds_eq, a0, a10, a11, a12, a13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
